-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x2048 .f32) (main_arg1 : FVec F S8192x2048 .f32) (main_arg2 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S8192x2048 : Shape := ⟨2, ![8192, 2048]⟩
abbrev S8192 : Shape := ⟨1, ![8192]⟩
abbrev S8192x1024x2x1 : Shape := ⟨4, ![8192, 1024, 2, 1]⟩
abbrev S8192x1024x1x1 : Shape := ⟨4, ![8192, 1024, 1, 1]⟩
abbrev S8192x1024x1 : Shape := ⟨3, ![8192, 1024, 1]⟩
abbrev S8192x512x2x2 : Shape := ⟨4, ![8192, 512, 2, 2]⟩
abbrev S8192x512x1x2 : Shape := ⟨4, ![8192, 512, 1, 2]⟩
abbrev S8192x512x2 : Shape := ⟨3, ![8192, 512, 2]⟩
abbrev S8192x256x2x4 : Shape := ⟨4, ![8192, 256, 2, 4]⟩
abbrev S8192x256x1x4 : Shape := ⟨4, ![8192, 256, 1, 4]⟩
abbrev S8192x256x4 : Shape := ⟨3, ![8192, 256, 4]⟩
abbrev S8192x128x2x8 : Shape := ⟨4, ![8192, 128, 2, 8]⟩
abbrev S8192x128x1x8 : Shape := ⟨4, ![8192, 128, 1, 8]⟩
abbrev S8192x128x8 : Shape := ⟨3, ![8192, 128, 8]⟩
abbrev S8192x64x2x16 : Shape := ⟨4, ![8192, 64, 2, 16]⟩
abbrev S8192x64x1x16 : Shape := ⟨4, ![8192, 64, 1, 16]⟩
abbrev S8192x64x16 : Shape := ⟨3, ![8192, 64, 16]⟩
abbrev S8192x32x2x32 : Shape := ⟨4, ![8192, 32, 2, 32]⟩
abbrev S8192x32x1x32 : Shape := ⟨4, ![8192, 32, 1, 32]⟩
abbrev S8192x32x32 : Shape := ⟨3, ![8192, 32, 32]⟩
abbrev S8192x16x2x64 : Shape := ⟨4, ![8192, 16, 2, 64]⟩
abbrev S8192x16x1x64 : Shape := ⟨4, ![8192, 16, 1, 64]⟩
abbrev S8192x16x64 : Shape := ⟨3, ![8192, 16, 64]⟩
abbrev S8192x8x2x128 : Shape := ⟨4, ![8192, 8, 2, 128]⟩
abbrev S8192x8x1x128 : Shape := ⟨4, ![8192, 8, 1, 128]⟩
abbrev S8192x8x128 : Shape := ⟨3, ![8192, 8, 128]⟩
abbrev S8192x4x2x256 : Shape := ⟨4, ![8192, 4, 2, 256]⟩
abbrev S8192x4x1x256 : Shape := ⟨4, ![8192, 4, 1, 256]⟩
abbrev S8192x4x256 : Shape := ⟨3, ![8192, 4, 256]⟩
abbrev S8192x2x2x512 : Shape := ⟨4, ![8192, 2, 2, 512]⟩
abbrev S8192x2x1x512 : Shape := ⟨4, ![8192, 2, 1, 512]⟩
abbrev S8192x2x512 : Shape := ⟨3, ![8192, 2, 512]⟩
abbrev S8192x1x2x1024 : Shape := ⟨4, ![8192, 1, 2, 1024]⟩
abbrev S8192x1x1x1024 : Shape := ⟨4, ![8192, 1, 1, 1024]⟩
abbrev S8192x1x1024 : Shape := ⟨3, ![8192, 1, 1024]⟩
abbrev S_ : Shape := ⟨0, ![]⟩
abbrev S1x8192 : Shape := ⟨2, ![1, 8192]⟩
abbrev S8192x8192 : Shape := ⟨2, ![8192, 8192]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩

abbrev nBuf : Space → Nat
  | .hbm => 131
  | .vmem => 8
  | .smem => 0
  | _ => 0

abbrev hbmTy0_0 (i : Nat) : BufTy := match i % 128 with
  | 0 => ⟨S8192x2048, .f32⟩
  | 1 => ⟨S8192x2048, .f32⟩
  | 2 => ⟨S8192, .f32⟩
  | 3 => ⟨S8192x1024x2x1, .f32⟩
  | 4 => ⟨S8192x1024x1x1, .f32⟩
  | 5 => ⟨S8192x1024x1, .f32⟩
  | 6 => ⟨S8192x1024x1x1, .f32⟩
  | 7 => ⟨S8192x1024x1, .f32⟩
  | 8 => ⟨S8192x1024x1, .f32⟩
  | 9 => ⟨S8192x1024x1, .f32⟩
  | 10 => ⟨S8192x1024x1x1, .f32⟩
  | 11 => ⟨S8192x1024x1x1, .f32⟩
  | 12 => ⟨S8192x1024x2x1, .f32⟩
  | 13 => ⟨S8192x2048, .f32⟩
  | 14 => ⟨S8192x512x2x2, .f32⟩
  | 15 => ⟨S8192x512x1x2, .f32⟩
  | 16 => ⟨S8192x512x2, .f32⟩
  | 17 => ⟨S8192x512x1x2, .f32⟩
  | 18 => ⟨S8192x512x2, .f32⟩
  | 19 => ⟨S8192x512x2, .f32⟩
  | 20 => ⟨S8192x512x2, .f32⟩
  | 21 => ⟨S8192x512x1x2, .f32⟩
  | 22 => ⟨S8192x512x1x2, .f32⟩
  | 23 => ⟨S8192x512x2x2, .f32⟩
  | 24 => ⟨S8192x2048, .f32⟩
  | 25 => ⟨S8192x256x2x4, .f32⟩
  | 26 => ⟨S8192x256x1x4, .f32⟩
  | 27 => ⟨S8192x256x4, .f32⟩
  | 28 => ⟨S8192x256x1x4, .f32⟩
  | 29 => ⟨S8192x256x4, .f32⟩
  | 30 => ⟨S8192x256x4, .f32⟩
  | 31 => ⟨S8192x256x4, .f32⟩
  | 32 => ⟨S8192x256x1x4, .f32⟩
  | 33 => ⟨S8192x256x1x4, .f32⟩
  | 34 => ⟨S8192x256x2x4, .f32⟩
  | 35 => ⟨S8192x2048, .f32⟩
  | 36 => ⟨S8192x128x2x8, .f32⟩
  | 37 => ⟨S8192x128x1x8, .f32⟩
  | 38 => ⟨S8192x128x8, .f32⟩
  | 39 => ⟨S8192x128x1x8, .f32⟩
  | 40 => ⟨S8192x128x8, .f32⟩
  | 41 => ⟨S8192x128x8, .f32⟩
  | 42 => ⟨S8192x128x8, .f32⟩
  | 43 => ⟨S8192x128x1x8, .f32⟩
  | 44 => ⟨S8192x128x1x8, .f32⟩
  | 45 => ⟨S8192x128x2x8, .f32⟩
  | 46 => ⟨S8192x2048, .f32⟩
  | 47 => ⟨S8192x64x2x16, .f32⟩
  | 48 => ⟨S8192x64x1x16, .f32⟩
  | 49 => ⟨S8192x64x16, .f32⟩
  | 50 => ⟨S8192x64x1x16, .f32⟩
  | 51 => ⟨S8192x64x16, .f32⟩
  | 52 => ⟨S8192x64x16, .f32⟩
  | 53 => ⟨S8192x64x16, .f32⟩
  | 54 => ⟨S8192x64x1x16, .f32⟩
  | 55 => ⟨S8192x64x1x16, .f32⟩
  | 56 => ⟨S8192x64x2x16, .f32⟩
  | 57 => ⟨S8192x2048, .f32⟩
  | 58 => ⟨S8192x32x2x32, .f32⟩
  | 59 => ⟨S8192x32x1x32, .f32⟩
  | 60 => ⟨S8192x32x32, .f32⟩
  | 61 => ⟨S8192x32x1x32, .f32⟩
  | 62 => ⟨S8192x32x32, .f32⟩
  | 63 => ⟨S8192x32x32, .f32⟩
  | 64 => ⟨S8192x32x32, .f32⟩
  | 65 => ⟨S8192x32x1x32, .f32⟩
  | 66 => ⟨S8192x32x1x32, .f32⟩
  | 67 => ⟨S8192x32x2x32, .f32⟩
  | 68 => ⟨S8192x2048, .f32⟩
  | 69 => ⟨S8192x16x2x64, .f32⟩
  | 70 => ⟨S8192x16x1x64, .f32⟩
  | 71 => ⟨S8192x16x64, .f32⟩
  | 72 => ⟨S8192x16x1x64, .f32⟩
  | 73 => ⟨S8192x16x64, .f32⟩
  | 74 => ⟨S8192x16x64, .f32⟩
  | 75 => ⟨S8192x16x64, .f32⟩
  | 76 => ⟨S8192x16x1x64, .f32⟩
  | 77 => ⟨S8192x16x1x64, .f32⟩
  | 78 => ⟨S8192x16x2x64, .f32⟩
  | 79 => ⟨S8192x2048, .f32⟩
  | 80 => ⟨S8192x8x2x128, .f32⟩
  | 81 => ⟨S8192x8x1x128, .f32⟩
  | 82 => ⟨S8192x8x128, .f32⟩
  | 83 => ⟨S8192x8x1x128, .f32⟩
  | 84 => ⟨S8192x8x128, .f32⟩
  | 85 => ⟨S8192x8x128, .f32⟩
  | 86 => ⟨S8192x8x128, .f32⟩
  | 87 => ⟨S8192x8x1x128, .f32⟩
  | 88 => ⟨S8192x8x1x128, .f32⟩
  | 89 => ⟨S8192x8x2x128, .f32⟩
  | 90 => ⟨S8192x2048, .f32⟩
  | 91 => ⟨S8192x4x2x256, .f32⟩
  | 92 => ⟨S8192x4x1x256, .f32⟩
  | 93 => ⟨S8192x4x256, .f32⟩
  | 94 => ⟨S8192x4x1x256, .f32⟩
  | 95 => ⟨S8192x4x256, .f32⟩
  | 96 => ⟨S8192x4x256, .f32⟩
  | 97 => ⟨S8192x4x256, .f32⟩
  | 98 => ⟨S8192x4x1x256, .f32⟩
  | 99 => ⟨S8192x4x1x256, .f32⟩
  | 100 => ⟨S8192x4x2x256, .f32⟩
  | 101 => ⟨S8192x2048, .f32⟩
  | 102 => ⟨S8192x2x2x512, .f32⟩
  | 103 => ⟨S8192x2x1x512, .f32⟩
  | 104 => ⟨S8192x2x512, .f32⟩
  | 105 => ⟨S8192x2x1x512, .f32⟩
  | 106 => ⟨S8192x2x512, .f32⟩
  | 107 => ⟨S8192x2x512, .f32⟩
  | 108 => ⟨S8192x2x512, .f32⟩
  | 109 => ⟨S8192x2x1x512, .f32⟩
  | 110 => ⟨S8192x2x1x512, .f32⟩
  | 111 => ⟨S8192x2x2x512, .f32⟩
  | 112 => ⟨S8192x2048, .f32⟩
  | 113 => ⟨S8192x1x2x1024, .f32⟩
  | 114 => ⟨S8192x1x1x1024, .f32⟩
  | 115 => ⟨S8192x1x1024, .f32⟩
  | 116 => ⟨S8192x1x1x1024, .f32⟩
  | 117 => ⟨S8192x1x1024, .f32⟩
  | 118 => ⟨S8192x1x1024, .f32⟩
  | 119 => ⟨S8192x1x1024, .f32⟩
  | 120 => ⟨S8192x1x1x1024, .f32⟩
  | 121 => ⟨S8192x1x1x1024, .f32⟩
  | 122 => ⟨S8192x1x2x1024, .f32⟩
  | 123 => ⟨S8192x2048, .f32⟩
  | 124 => ⟨S_, .f32⟩
  | 125 => ⟨S8192x2048, .f32⟩
  | 126 => ⟨S8192x2048, .f32⟩
  | 127 => ⟨S8192x2048, .bf16⟩
  | _ => ⟨S8192x2048, .f32⟩

abbrev hbmTy0_1 (i : Nat) : BufTy := match i % 128 with
  | 0 => ⟨S8192x2048, .bf16⟩
  | 1 => ⟨S1x8192, .f32⟩
  | 2 => ⟨S8192x8192, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_cst : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192x2048_S8192x1024x2x1 : S8192x2048.ShapeCasts S8192x1024x2x1
  slices_S8192x1024x2x1_S8192x1024x1x1_0_0_0_0 : S8192x1024x2x1.Slices ![0, 0, 0, 0] S8192x1024x1x1
  shapeCasts_S8192x1024x1x1_S8192x1024x1 : S8192x1024x1x1.ShapeCasts S8192x1024x1
  slices_S8192x1024x2x1_S8192x1024x1x1_0_0_1_0 : S8192x1024x2x1.Slices ![0, 0, 1, 0] S8192x1024x1x1
  bcast_S8192x1024x1_S8192x1024x1x1_0_1_3 : S8192x1024x1.BroadcastsInDim S8192x1024x1x1 (![0, 1, 3] : Fin 3 → Fin S8192x1024x1x1.rank)
  concatenates_S8192x1024x1x1_S8192x1024x1x1_S8192x1024x2x1_d2 : Shape.Concatenates [S8192x1024x1x1, S8192x1024x1x1] S8192x1024x2x1 2
  shapeCasts_S8192x1024x2x1_S8192x2048 : S8192x1024x2x1.ShapeCasts S8192x2048
  shapeCasts_S8192x2048_S8192x512x2x2 : S8192x2048.ShapeCasts S8192x512x2x2
  slices_S8192x512x2x2_S8192x512x1x2_0_0_0_0 : S8192x512x2x2.Slices ![0, 0, 0, 0] S8192x512x1x2
  shapeCasts_S8192x512x1x2_S8192x512x2 : S8192x512x1x2.ShapeCasts S8192x512x2
  slices_S8192x512x2x2_S8192x512x1x2_0_0_1_0 : S8192x512x2x2.Slices ![0, 0, 1, 0] S8192x512x1x2
  bcast_S8192x512x2_S8192x512x1x2_0_1_3 : S8192x512x2.BroadcastsInDim S8192x512x1x2 (![0, 1, 3] : Fin 3 → Fin S8192x512x1x2.rank)
  concatenates_S8192x512x1x2_S8192x512x1x2_S8192x512x2x2_d2 : Shape.Concatenates [S8192x512x1x2, S8192x512x1x2] S8192x512x2x2 2
  shapeCasts_S8192x512x2x2_S8192x2048 : S8192x512x2x2.ShapeCasts S8192x2048
  shapeCasts_S8192x2048_S8192x256x2x4 : S8192x2048.ShapeCasts S8192x256x2x4
  slices_S8192x256x2x4_S8192x256x1x4_0_0_0_0 : S8192x256x2x4.Slices ![0, 0, 0, 0] S8192x256x1x4
  shapeCasts_S8192x256x1x4_S8192x256x4 : S8192x256x1x4.ShapeCasts S8192x256x4
  slices_S8192x256x2x4_S8192x256x1x4_0_0_1_0 : S8192x256x2x4.Slices ![0, 0, 1, 0] S8192x256x1x4
  bcast_S8192x256x4_S8192x256x1x4_0_1_3 : S8192x256x4.BroadcastsInDim S8192x256x1x4 (![0, 1, 3] : Fin 3 → Fin S8192x256x1x4.rank)
  concatenates_S8192x256x1x4_S8192x256x1x4_S8192x256x2x4_d2 : Shape.Concatenates [S8192x256x1x4, S8192x256x1x4] S8192x256x2x4 2
  shapeCasts_S8192x256x2x4_S8192x2048 : S8192x256x2x4.ShapeCasts S8192x2048
  shapeCasts_S8192x2048_S8192x128x2x8 : S8192x2048.ShapeCasts S8192x128x2x8
  slices_S8192x128x2x8_S8192x128x1x8_0_0_0_0 : S8192x128x2x8.Slices ![0, 0, 0, 0] S8192x128x1x8
  shapeCasts_S8192x128x1x8_S8192x128x8 : S8192x128x1x8.ShapeCasts S8192x128x8
  slices_S8192x128x2x8_S8192x128x1x8_0_0_1_0 : S8192x128x2x8.Slices ![0, 0, 1, 0] S8192x128x1x8
  bcast_S8192x128x8_S8192x128x1x8_0_1_3 : S8192x128x8.BroadcastsInDim S8192x128x1x8 (![0, 1, 3] : Fin 3 → Fin S8192x128x1x8.rank)
  concatenates_S8192x128x1x8_S8192x128x1x8_S8192x128x2x8_d2 : Shape.Concatenates [S8192x128x1x8, S8192x128x1x8] S8192x128x2x8 2
  shapeCasts_S8192x128x2x8_S8192x2048 : S8192x128x2x8.ShapeCasts S8192x2048
  shapeCasts_S8192x2048_S8192x64x2x16 : S8192x2048.ShapeCasts S8192x64x2x16
  slices_S8192x64x2x16_S8192x64x1x16_0_0_0_0 : S8192x64x2x16.Slices ![0, 0, 0, 0] S8192x64x1x16
  shapeCasts_S8192x64x1x16_S8192x64x16 : S8192x64x1x16.ShapeCasts S8192x64x16
  slices_S8192x64x2x16_S8192x64x1x16_0_0_1_0 : S8192x64x2x16.Slices ![0, 0, 1, 0] S8192x64x1x16
  bcast_S8192x64x16_S8192x64x1x16_0_1_3 : S8192x64x16.BroadcastsInDim S8192x64x1x16 (![0, 1, 3] : Fin 3 → Fin S8192x64x1x16.rank)
  concatenates_S8192x64x1x16_S8192x64x1x16_S8192x64x2x16_d2 : Shape.Concatenates [S8192x64x1x16, S8192x64x1x16] S8192x64x2x16 2
  shapeCasts_S8192x64x2x16_S8192x2048 : S8192x64x2x16.ShapeCasts S8192x2048
  shapeCasts_S8192x2048_S8192x32x2x32 : S8192x2048.ShapeCasts S8192x32x2x32
  slices_S8192x32x2x32_S8192x32x1x32_0_0_0_0 : S8192x32x2x32.Slices ![0, 0, 0, 0] S8192x32x1x32
  shapeCasts_S8192x32x1x32_S8192x32x32 : S8192x32x1x32.ShapeCasts S8192x32x32
  slices_S8192x32x2x32_S8192x32x1x32_0_0_1_0 : S8192x32x2x32.Slices ![0, 0, 1, 0] S8192x32x1x32
  bcast_S8192x32x32_S8192x32x1x32_0_1_3 : S8192x32x32.BroadcastsInDim S8192x32x1x32 (![0, 1, 3] : Fin 3 → Fin S8192x32x1x32.rank)
  concatenates_S8192x32x1x32_S8192x32x1x32_S8192x32x2x32_d2 : Shape.Concatenates [S8192x32x1x32, S8192x32x1x32] S8192x32x2x32 2
  shapeCasts_S8192x32x2x32_S8192x2048 : S8192x32x2x32.ShapeCasts S8192x2048
  shapeCasts_S8192x2048_S8192x16x2x64 : S8192x2048.ShapeCasts S8192x16x2x64
  slices_S8192x16x2x64_S8192x16x1x64_0_0_0_0 : S8192x16x2x64.Slices ![0, 0, 0, 0] S8192x16x1x64
  shapeCasts_S8192x16x1x64_S8192x16x64 : S8192x16x1x64.ShapeCasts S8192x16x64
  slices_S8192x16x2x64_S8192x16x1x64_0_0_1_0 : S8192x16x2x64.Slices ![0, 0, 1, 0] S8192x16x1x64
  bcast_S8192x16x64_S8192x16x1x64_0_1_3 : S8192x16x64.BroadcastsInDim S8192x16x1x64 (![0, 1, 3] : Fin 3 → Fin S8192x16x1x64.rank)
  concatenates_S8192x16x1x64_S8192x16x1x64_S8192x16x2x64_d2 : Shape.Concatenates [S8192x16x1x64, S8192x16x1x64] S8192x16x2x64 2
  shapeCasts_S8192x16x2x64_S8192x2048 : S8192x16x2x64.ShapeCasts S8192x2048
  shapeCasts_S8192x2048_S8192x8x2x128 : S8192x2048.ShapeCasts S8192x8x2x128
  slices_S8192x8x2x128_S8192x8x1x128_0_0_0_0 : S8192x8x2x128.Slices ![0, 0, 0, 0] S8192x8x1x128
  shapeCasts_S8192x8x1x128_S8192x8x128 : S8192x8x1x128.ShapeCasts S8192x8x128
  slices_S8192x8x2x128_S8192x8x1x128_0_0_1_0 : S8192x8x2x128.Slices ![0, 0, 1, 0] S8192x8x1x128
  bcast_S8192x8x128_S8192x8x1x128_0_1_3 : S8192x8x128.BroadcastsInDim S8192x8x1x128 (![0, 1, 3] : Fin 3 → Fin S8192x8x1x128.rank)
  concatenates_S8192x8x1x128_S8192x8x1x128_S8192x8x2x128_d2 : Shape.Concatenates [S8192x8x1x128, S8192x8x1x128] S8192x8x2x128 2
  shapeCasts_S8192x8x2x128_S8192x2048 : S8192x8x2x128.ShapeCasts S8192x2048
  shapeCasts_S8192x2048_S8192x4x2x256 : S8192x2048.ShapeCasts S8192x4x2x256
  slices_S8192x4x2x256_S8192x4x1x256_0_0_0_0 : S8192x4x2x256.Slices ![0, 0, 0, 0] S8192x4x1x256
  shapeCasts_S8192x4x1x256_S8192x4x256 : S8192x4x1x256.ShapeCasts S8192x4x256
  slices_S8192x4x2x256_S8192x4x1x256_0_0_1_0 : S8192x4x2x256.Slices ![0, 0, 1, 0] S8192x4x1x256
  bcast_S8192x4x256_S8192x4x1x256_0_1_3 : S8192x4x256.BroadcastsInDim S8192x4x1x256 (![0, 1, 3] : Fin 3 → Fin S8192x4x1x256.rank)
  concatenates_S8192x4x1x256_S8192x4x1x256_S8192x4x2x256_d2 : Shape.Concatenates [S8192x4x1x256, S8192x4x1x256] S8192x4x2x256 2
  shapeCasts_S8192x4x2x256_S8192x2048 : S8192x4x2x256.ShapeCasts S8192x2048
  shapeCasts_S8192x2048_S8192x2x2x512 : S8192x2048.ShapeCasts S8192x2x2x512
  slices_S8192x2x2x512_S8192x2x1x512_0_0_0_0 : S8192x2x2x512.Slices ![0, 0, 0, 0] S8192x2x1x512
  shapeCasts_S8192x2x1x512_S8192x2x512 : S8192x2x1x512.ShapeCasts S8192x2x512
  slices_S8192x2x2x512_S8192x2x1x512_0_0_1_0 : S8192x2x2x512.Slices ![0, 0, 1, 0] S8192x2x1x512
  bcast_S8192x2x512_S8192x2x1x512_0_1_3 : S8192x2x512.BroadcastsInDim S8192x2x1x512 (![0, 1, 3] : Fin 3 → Fin S8192x2x1x512.rank)
  concatenates_S8192x2x1x512_S8192x2x1x512_S8192x2x2x512_d2 : Shape.Concatenates [S8192x2x1x512, S8192x2x1x512] S8192x2x2x512 2
  shapeCasts_S8192x2x2x512_S8192x2048 : S8192x2x2x512.ShapeCasts S8192x2048
  shapeCasts_S8192x2048_S8192x1x2x1024 : S8192x2048.ShapeCasts S8192x1x2x1024
  slices_S8192x1x2x1024_S8192x1x1x1024_0_0_0_0 : S8192x1x2x1024.Slices ![0, 0, 0, 0] S8192x1x1x1024
  shapeCasts_S8192x1x1x1024_S8192x1x1024 : S8192x1x1x1024.ShapeCasts S8192x1x1024
  slices_S8192x1x2x1024_S8192x1x1x1024_0_0_1_0 : S8192x1x2x1024.Slices ![0, 0, 1, 0] S8192x1x1x1024
  bcast_S8192x1x1024_S8192x1x1x1024_0_1_3 : S8192x1x1024.BroadcastsInDim S8192x1x1x1024 (![0, 1, 3] : Fin 3 → Fin S8192x1x1x1024.rank)
  concatenates_S8192x1x1x1024_S8192x1x1x1024_S8192x1x2x1024_d2 : Shape.Concatenates [S8192x1x1x1024, S8192x1x1x1024] S8192x1x2x1024 2
  shapeCasts_S8192x1x2x1024_S8192x2048 : S8192x1x2x1024.ShapeCasts S8192x2048
  bcast_S_S8192x2048 : S_.BroadcastsInDim S8192x2048 (![] : Fin 0 → Fin S8192x2048.rank)
  bitsLt_bf16_f32 : FTy.bits .bf16 < FTy.bits .f32
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x8192.size a
  hwx0_3 : ∀ i : grid0.Coords, EltTy.bits .f32 = 32 ∨ (Rect.block (s := S8192x8192) S512x1024.size (cc0_transform_3 i) (hinb0_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v123) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v124) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v125) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v126) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S8192x1024x2x1 : Shape := ⟨4, ![8192, 1024, 2, 1]⟩
abbrev S8192x1024x1x1 : Shape := ⟨4, ![8192, 1024, 1, 1]⟩
abbrev S8192x1024x1 : Shape := ⟨3, ![8192, 1024, 1]⟩
abbrev S8192x512x2x2 : Shape := ⟨4, ![8192, 512, 2, 2]⟩
abbrev S8192x512x1x2 : Shape := ⟨4, ![8192, 512, 1, 2]⟩
abbrev S8192x512x2 : Shape := ⟨3, ![8192, 512, 2]⟩
abbrev S8192x256x2x4 : Shape := ⟨4, ![8192, 256, 2, 4]⟩
abbrev S8192x256x1x4 : Shape := ⟨4, ![8192, 256, 1, 4]⟩
abbrev S8192x256x4 : Shape := ⟨3, ![8192, 256, 4]⟩
abbrev S8192x128x2x8 : Shape := ⟨4, ![8192, 128, 2, 8]⟩
abbrev S8192x128x1x8 : Shape := ⟨4, ![8192, 128, 1, 8]⟩
abbrev S8192x128x8 : Shape := ⟨3, ![8192, 128, 8]⟩
abbrev S8192x64x2x16 : Shape := ⟨4, ![8192, 64, 2, 16]⟩
abbrev S8192x64x1x16 : Shape := ⟨4, ![8192, 64, 1, 16]⟩
abbrev S8192x64x16 : Shape := ⟨3, ![8192, 64, 16]⟩
abbrev S8192x32x2x32 : Shape := ⟨4, ![8192, 32, 2, 32]⟩
abbrev S8192x32x1x32 : Shape := ⟨4, ![8192, 32, 1, 32]⟩
abbrev S8192x32x32 : Shape := ⟨3, ![8192, 32, 32]⟩
abbrev S8192x16x2x64 : Shape := ⟨4, ![8192, 16, 2, 64]⟩
abbrev S8192x16x1x64 : Shape := ⟨4, ![8192, 16, 1, 64]⟩
abbrev S8192x16x64 : Shape := ⟨3, ![8192, 16, 64]⟩
abbrev S8192x8x2x128 : Shape := ⟨4, ![8192, 8, 2, 128]⟩
abbrev S8192x8x1x128 : Shape := ⟨4, ![8192, 8, 1, 128]⟩
abbrev S8192x8x128 : Shape := ⟨3, ![8192, 8, 128]⟩
abbrev S8192x4x2x256 : Shape := ⟨4, ![8192, 4, 2, 256]⟩
abbrev S8192x4x1x256 : Shape := ⟨4, ![8192, 4, 1, 256]⟩
abbrev S8192x4x256 : Shape := ⟨3, ![8192, 4, 256]⟩
abbrev S8192x2x2x512 : Shape := ⟨4, ![8192, 2, 2, 512]⟩
abbrev S8192x2x1x512 : Shape := ⟨4, ![8192, 2, 1, 512]⟩
abbrev S8192x2x512 : Shape := ⟨3, ![8192, 2, 512]⟩
abbrev S8192x1x2x1024 : Shape := ⟨4, ![8192, 1, 2, 1024]⟩
abbrev S8192x1x1x1024 : Shape := ⟨4, ![8192, 1, 1, 1024]⟩
abbrev S8192x1x1024 : Shape := ⟨3, ![8192, 1, 1024]⟩
abbrev S_ : Shape := ⟨0, ![]⟩
abbrev S8192x8192 : Shape := ⟨2, ![8192, 8192]⟩
abbrev S1x8192 : Shape := ⟨2, ![1, 8192]⟩

abbrev nBuf : Space → Nat
  | .hbm => 131
  | .vmem => 0
  | .smem => 0
  | _ => 0

abbrev hbmTy0_0 (i : Nat) : BufTy := match i % 128 with
  | 0 => ⟨S8192x2048, .f32⟩
  | 1 => ⟨S8192x2048, .f32⟩
  | 2 => ⟨S8192, .f32⟩
  | 3 => ⟨S8192x1024x2x1, .f32⟩
  | 4 => ⟨S8192x1024x1x1, .f32⟩
  | 5 => ⟨S8192x1024x1, .f32⟩
  | 6 => ⟨S8192x1024x1x1, .f32⟩
  | 7 => ⟨S8192x1024x1, .f32⟩
  | 8 => ⟨S8192x1024x1, .f32⟩
  | 9 => ⟨S8192x1024x1, .f32⟩
  | 10 => ⟨S8192x1024x1x1, .f32⟩
  | 11 => ⟨S8192x1024x1x1, .f32⟩
  | 12 => ⟨S8192x1024x2x1, .f32⟩
  | 13 => ⟨S8192x2048, .f32⟩
  | 14 => ⟨S8192x512x2x2, .f32⟩
  | 15 => ⟨S8192x512x1x2, .f32⟩
  | 16 => ⟨S8192x512x2, .f32⟩
  | 17 => ⟨S8192x512x1x2, .f32⟩
  | 18 => ⟨S8192x512x2, .f32⟩
  | 19 => ⟨S8192x512x2, .f32⟩
  | 20 => ⟨S8192x512x2, .f32⟩
  | 21 => ⟨S8192x512x1x2, .f32⟩
  | 22 => ⟨S8192x512x1x2, .f32⟩
  | 23 => ⟨S8192x512x2x2, .f32⟩
  | 24 => ⟨S8192x2048, .f32⟩
  | 25 => ⟨S8192x256x2x4, .f32⟩
  | 26 => ⟨S8192x256x1x4, .f32⟩
  | 27 => ⟨S8192x256x4, .f32⟩
  | 28 => ⟨S8192x256x1x4, .f32⟩
  | 29 => ⟨S8192x256x4, .f32⟩
  | 30 => ⟨S8192x256x4, .f32⟩
  | 31 => ⟨S8192x256x4, .f32⟩
  | 32 => ⟨S8192x256x1x4, .f32⟩
  | 33 => ⟨S8192x256x1x4, .f32⟩
  | 34 => ⟨S8192x256x2x4, .f32⟩
  | 35 => ⟨S8192x2048, .f32⟩
  | 36 => ⟨S8192x128x2x8, .f32⟩
  | 37 => ⟨S8192x128x1x8, .f32⟩
  | 38 => ⟨S8192x128x8, .f32⟩
  | 39 => ⟨S8192x128x1x8, .f32⟩
  | 40 => ⟨S8192x128x8, .f32⟩
  | 41 => ⟨S8192x128x8, .f32⟩
  | 42 => ⟨S8192x128x8, .f32⟩
  | 43 => ⟨S8192x128x1x8, .f32⟩
  | 44 => ⟨S8192x128x1x8, .f32⟩
  | 45 => ⟨S8192x128x2x8, .f32⟩
  | 46 => ⟨S8192x2048, .f32⟩
  | 47 => ⟨S8192x64x2x16, .f32⟩
  | 48 => ⟨S8192x64x1x16, .f32⟩
  | 49 => ⟨S8192x64x16, .f32⟩
  | 50 => ⟨S8192x64x1x16, .f32⟩
  | 51 => ⟨S8192x64x16, .f32⟩
  | 52 => ⟨S8192x64x16, .f32⟩
  | 53 => ⟨S8192x64x16, .f32⟩
  | 54 => ⟨S8192x64x1x16, .f32⟩
  | 55 => ⟨S8192x64x1x16, .f32⟩
  | 56 => ⟨S8192x64x2x16, .f32⟩
  | 57 => ⟨S8192x2048, .f32⟩
  | 58 => ⟨S8192x32x2x32, .f32⟩
  | 59 => ⟨S8192x32x1x32, .f32⟩
  | 60 => ⟨S8192x32x32, .f32⟩
  | 61 => ⟨S8192x32x1x32, .f32⟩
  | 62 => ⟨S8192x32x32, .f32⟩
  | 63 => ⟨S8192x32x32, .f32⟩
  | 64 => ⟨S8192x32x32, .f32⟩
  | 65 => ⟨S8192x32x1x32, .f32⟩
  | 66 => ⟨S8192x32x1x32, .f32⟩
  | 67 => ⟨S8192x32x2x32, .f32⟩
  | 68 => ⟨S8192x2048, .f32⟩
  | 69 => ⟨S8192x16x2x64, .f32⟩
  | 70 => ⟨S8192x16x1x64, .f32⟩
  | 71 => ⟨S8192x16x64, .f32⟩
  | 72 => ⟨S8192x16x1x64, .f32⟩
  | 73 => ⟨S8192x16x64, .f32⟩
  | 74 => ⟨S8192x16x64, .f32⟩
  | 75 => ⟨S8192x16x64, .f32⟩
  | 76 => ⟨S8192x16x1x64, .f32⟩
  | 77 => ⟨S8192x16x1x64, .f32⟩
  | 78 => ⟨S8192x16x2x64, .f32⟩
  | 79 => ⟨S8192x2048, .f32⟩
  | 80 => ⟨S8192x8x2x128, .f32⟩
  | 81 => ⟨S8192x8x1x128, .f32⟩
  | 82 => ⟨S8192x8x128, .f32⟩
  | 83 => ⟨S8192x8x1x128, .f32⟩
  | 84 => ⟨S8192x8x128, .f32⟩
  | 85 => ⟨S8192x8x128, .f32⟩
  | 86 => ⟨S8192x8x128, .f32⟩
  | 87 => ⟨S8192x8x1x128, .f32⟩
  | 88 => ⟨S8192x8x1x128, .f32⟩
  | 89 => ⟨S8192x8x2x128, .f32⟩
  | 90 => ⟨S8192x2048, .f32⟩
  | 91 => ⟨S8192x4x2x256, .f32⟩
  | 92 => ⟨S8192x4x1x256, .f32⟩
  | 93 => ⟨S8192x4x256, .f32⟩
  | 94 => ⟨S8192x4x1x256, .f32⟩
  | 95 => ⟨S8192x4x256, .f32⟩
  | 96 => ⟨S8192x4x256, .f32⟩
  | 97 => ⟨S8192x4x256, .f32⟩
  | 98 => ⟨S8192x4x1x256, .f32⟩
  | 99 => ⟨S8192x4x1x256, .f32⟩
  | 100 => ⟨S8192x4x2x256, .f32⟩
  | 101 => ⟨S8192x2048, .f32⟩
  | 102 => ⟨S8192x2x2x512, .f32⟩
  | 103 => ⟨S8192x2x1x512, .f32⟩
  | 104 => ⟨S8192x2x512, .f32⟩
  | 105 => ⟨S8192x2x1x512, .f32⟩
  | 106 => ⟨S8192x2x512, .f32⟩
  | 107 => ⟨S8192x2x512, .f32⟩
  | 108 => ⟨S8192x2x512, .f32⟩
  | 109 => ⟨S8192x2x1x512, .f32⟩
  | 110 => ⟨S8192x2x1x512, .f32⟩
  | 111 => ⟨S8192x2x2x512, .f32⟩
  | 112 => ⟨S8192x2048, .f32⟩
  | 113 => ⟨S8192x1x2x1024, .f32⟩
  | 114 => ⟨S8192x1x1x1024, .f32⟩
  | 115 => ⟨S8192x1x1024, .f32⟩
  | 116 => ⟨S8192x1x1x1024, .f32⟩
  | 117 => ⟨S8192x1x1024, .f32⟩
  | 118 => ⟨S8192x1x1024, .f32⟩
  | 119 => ⟨S8192x1x1024, .f32⟩
  | 120 => ⟨S8192x1x1x1024, .f32⟩
  | 121 => ⟨S8192x1x1x1024, .f32⟩
  | 122 => ⟨S8192x1x2x1024, .f32⟩
  | 123 => ⟨S8192x2048, .f32⟩
  | 124 => ⟨S_, .f32⟩
  | 125 => ⟨S8192x2048, .f32⟩
  | 126 => ⟨S8192x2048, .f32⟩
  | 127 => ⟨S8192x8192, .f32⟩
  | _ => ⟨S8192x2048, .f32⟩

abbrev hbmTy0_1 (i : Nat) : BufTy := match i % 128 with
  | 0 => ⟨S1x8192, .f32⟩
  | 1 => ⟨S8192x8192, .f32⟩
  | 2 => ⟨S8192x8192, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_cst : Ref sig .tc := ⟨.hbm, 124, rfl⟩
abbrev main_v121 : Ref sig .tc := ⟨.hbm, 125, rfl⟩
abbrev main_v122 : Ref sig .tc := ⟨.hbm, 126, rfl⟩
abbrev main_v123 : Ref sig .tc := ⟨.hbm, 127, rfl⟩
abbrev main_v124 : Ref sig .tc := ⟨.hbm, 128, rfl⟩
abbrev main_v125 : Ref sig .tc := ⟨.hbm, 129, rfl⟩
abbrev main_v126 : Ref sig .tc := ⟨.hbm, 130, rfl⟩

abbrev nD : Nat := 1
abbrev τ : Topo := Topo.v7x

variable {F : FTy → Type} [FloatOps F]

class Facts₀ : Prop where
  shapeCasts_S8192x2048_S8192x1024x2x1 : S8192x2048.ShapeCasts S8192x1024x2x1
  slices_S8192x1024x2x1_S8192x1024x1x1_0_0_0_0 : S8192x1024x2x1.Slices ![0, 0, 0, 0] S8192x1024x1x1
  shapeCasts_S8192x1024x1x1_S8192x1024x1 : S8192x1024x1x1.ShapeCasts S8192x1024x1
  slices_S8192x1024x2x1_S8192x1024x1x1_0_0_1_0 : S8192x1024x2x1.Slices ![0, 0, 1, 0] S8192x1024x1x1
  bcast_S8192x1024x1_S8192x1024x1x1_0_1_3 : S8192x1024x1.BroadcastsInDim S8192x1024x1x1 (![0, 1, 3] : Fin 3 → Fin S8192x1024x1x1.rank)
  concatenates_S8192x1024x1x1_S8192x1024x1x1_S8192x1024x2x1_d2 : Shape.Concatenates [S8192x1024x1x1, S8192x1024x1x1] S8192x1024x2x1 2
  shapeCasts_S8192x1024x2x1_S8192x2048 : S8192x1024x2x1.ShapeCasts S8192x2048
  shapeCasts_S8192x2048_S8192x512x2x2 : S8192x2048.ShapeCasts S8192x512x2x2
  slices_S8192x512x2x2_S8192x512x1x2_0_0_0_0 : S8192x512x2x2.Slices ![0, 0, 0, 0] S8192x512x1x2
  shapeCasts_S8192x512x1x2_S8192x512x2 : S8192x512x1x2.ShapeCasts S8192x512x2
  slices_S8192x512x2x2_S8192x512x1x2_0_0_1_0 : S8192x512x2x2.Slices ![0, 0, 1, 0] S8192x512x1x2
  bcast_S8192x512x2_S8192x512x1x2_0_1_3 : S8192x512x2.BroadcastsInDim S8192x512x1x2 (![0, 1, 3] : Fin 3 → Fin S8192x512x1x2.rank)
  concatenates_S8192x512x1x2_S8192x512x1x2_S8192x512x2x2_d2 : Shape.Concatenates [S8192x512x1x2, S8192x512x1x2] S8192x512x2x2 2
  shapeCasts_S8192x512x2x2_S8192x2048 : S8192x512x2x2.ShapeCasts S8192x2048
  shapeCasts_S8192x2048_S8192x256x2x4 : S8192x2048.ShapeCasts S8192x256x2x4
  slices_S8192x256x2x4_S8192x256x1x4_0_0_0_0 : S8192x256x2x4.Slices ![0, 0, 0, 0] S8192x256x1x4
  shapeCasts_S8192x256x1x4_S8192x256x4 : S8192x256x1x4.ShapeCasts S8192x256x4
  slices_S8192x256x2x4_S8192x256x1x4_0_0_1_0 : S8192x256x2x4.Slices ![0, 0, 1, 0] S8192x256x1x4
  bcast_S8192x256x4_S8192x256x1x4_0_1_3 : S8192x256x4.BroadcastsInDim S8192x256x1x4 (![0, 1, 3] : Fin 3 → Fin S8192x256x1x4.rank)
  concatenates_S8192x256x1x4_S8192x256x1x4_S8192x256x2x4_d2 : Shape.Concatenates [S8192x256x1x4, S8192x256x1x4] S8192x256x2x4 2
  shapeCasts_S8192x256x2x4_S8192x2048 : S8192x256x2x4.ShapeCasts S8192x2048
  shapeCasts_S8192x2048_S8192x128x2x8 : S8192x2048.ShapeCasts S8192x128x2x8
  slices_S8192x128x2x8_S8192x128x1x8_0_0_0_0 : S8192x128x2x8.Slices ![0, 0, 0, 0] S8192x128x1x8
  shapeCasts_S8192x128x1x8_S8192x128x8 : S8192x128x1x8.ShapeCasts S8192x128x8
  slices_S8192x128x2x8_S8192x128x1x8_0_0_1_0 : S8192x128x2x8.Slices ![0, 0, 1, 0] S8192x128x1x8
  bcast_S8192x128x8_S8192x128x1x8_0_1_3 : S8192x128x8.BroadcastsInDim S8192x128x1x8 (![0, 1, 3] : Fin 3 → Fin S8192x128x1x8.rank)
  concatenates_S8192x128x1x8_S8192x128x1x8_S8192x128x2x8_d2 : Shape.Concatenates [S8192x128x1x8, S8192x128x1x8] S8192x128x2x8 2
  shapeCasts_S8192x128x2x8_S8192x2048 : S8192x128x2x8.ShapeCasts S8192x2048
  shapeCasts_S8192x2048_S8192x64x2x16 : S8192x2048.ShapeCasts S8192x64x2x16
  slices_S8192x64x2x16_S8192x64x1x16_0_0_0_0 : S8192x64x2x16.Slices ![0, 0, 0, 0] S8192x64x1x16
  shapeCasts_S8192x64x1x16_S8192x64x16 : S8192x64x1x16.ShapeCasts S8192x64x16
  slices_S8192x64x2x16_S8192x64x1x16_0_0_1_0 : S8192x64x2x16.Slices ![0, 0, 1, 0] S8192x64x1x16
  bcast_S8192x64x16_S8192x64x1x16_0_1_3 : S8192x64x16.BroadcastsInDim S8192x64x1x16 (![0, 1, 3] : Fin 3 → Fin S8192x64x1x16.rank)
  concatenates_S8192x64x1x16_S8192x64x1x16_S8192x64x2x16_d2 : Shape.Concatenates [S8192x64x1x16, S8192x64x1x16] S8192x64x2x16 2
  shapeCasts_S8192x64x2x16_S8192x2048 : S8192x64x2x16.ShapeCasts S8192x2048
  shapeCasts_S8192x2048_S8192x32x2x32 : S8192x2048.ShapeCasts S8192x32x2x32
  slices_S8192x32x2x32_S8192x32x1x32_0_0_0_0 : S8192x32x2x32.Slices ![0, 0, 0, 0] S8192x32x1x32
  shapeCasts_S8192x32x1x32_S8192x32x32 : S8192x32x1x32.ShapeCasts S8192x32x32
  slices_S8192x32x2x32_S8192x32x1x32_0_0_1_0 : S8192x32x2x32.Slices ![0, 0, 1, 0] S8192x32x1x32
  bcast_S8192x32x32_S8192x32x1x32_0_1_3 : S8192x32x32.BroadcastsInDim S8192x32x1x32 (![0, 1, 3] : Fin 3 → Fin S8192x32x1x32.rank)
  concatenates_S8192x32x1x32_S8192x32x1x32_S8192x32x2x32_d2 : Shape.Concatenates [S8192x32x1x32, S8192x32x1x32] S8192x32x2x32 2
  shapeCasts_S8192x32x2x32_S8192x2048 : S8192x32x2x32.ShapeCasts S8192x2048
  shapeCasts_S8192x2048_S8192x16x2x64 : S8192x2048.ShapeCasts S8192x16x2x64
  slices_S8192x16x2x64_S8192x16x1x64_0_0_0_0 : S8192x16x2x64.Slices ![0, 0, 0, 0] S8192x16x1x64
  shapeCasts_S8192x16x1x64_S8192x16x64 : S8192x16x1x64.ShapeCasts S8192x16x64
  slices_S8192x16x2x64_S8192x16x1x64_0_0_1_0 : S8192x16x2x64.Slices ![0, 0, 1, 0] S8192x16x1x64
  bcast_S8192x16x64_S8192x16x1x64_0_1_3 : S8192x16x64.BroadcastsInDim S8192x16x1x64 (![0, 1, 3] : Fin 3 → Fin S8192x16x1x64.rank)
  concatenates_S8192x16x1x64_S8192x16x1x64_S8192x16x2x64_d2 : Shape.Concatenates [S8192x16x1x64, S8192x16x1x64] S8192x16x2x64 2
  shapeCasts_S8192x16x2x64_S8192x2048 : S8192x16x2x64.ShapeCasts S8192x2048
  shapeCasts_S8192x2048_S8192x8x2x128 : S8192x2048.ShapeCasts S8192x8x2x128
  slices_S8192x8x2x128_S8192x8x1x128_0_0_0_0 : S8192x8x2x128.Slices ![0, 0, 0, 0] S8192x8x1x128
  shapeCasts_S8192x8x1x128_S8192x8x128 : S8192x8x1x128.ShapeCasts S8192x8x128
  slices_S8192x8x2x128_S8192x8x1x128_0_0_1_0 : S8192x8x2x128.Slices ![0, 0, 1, 0] S8192x8x1x128
  bcast_S8192x8x128_S8192x8x1x128_0_1_3 : S8192x8x128.BroadcastsInDim S8192x8x1x128 (![0, 1, 3] : Fin 3 → Fin S8192x8x1x128.rank)
  concatenates_S8192x8x1x128_S8192x8x1x128_S8192x8x2x128_d2 : Shape.Concatenates [S8192x8x1x128, S8192x8x1x128] S8192x8x2x128 2
  shapeCasts_S8192x8x2x128_S8192x2048 : S8192x8x2x128.ShapeCasts S8192x2048
  shapeCasts_S8192x2048_S8192x4x2x256 : S8192x2048.ShapeCasts S8192x4x2x256
  slices_S8192x4x2x256_S8192x4x1x256_0_0_0_0 : S8192x4x2x256.Slices ![0, 0, 0, 0] S8192x4x1x256
  shapeCasts_S8192x4x1x256_S8192x4x256 : S8192x4x1x256.ShapeCasts S8192x4x256
  slices_S8192x4x2x256_S8192x4x1x256_0_0_1_0 : S8192x4x2x256.Slices ![0, 0, 1, 0] S8192x4x1x256
  bcast_S8192x4x256_S8192x4x1x256_0_1_3 : S8192x4x256.BroadcastsInDim S8192x4x1x256 (![0, 1, 3] : Fin 3 → Fin S8192x4x1x256.rank)
  concatenates_S8192x4x1x256_S8192x4x1x256_S8192x4x2x256_d2 : Shape.Concatenates [S8192x4x1x256, S8192x4x1x256] S8192x4x2x256 2
  shapeCasts_S8192x4x2x256_S8192x2048 : S8192x4x2x256.ShapeCasts S8192x2048
  shapeCasts_S8192x2048_S8192x2x2x512 : S8192x2048.ShapeCasts S8192x2x2x512
  slices_S8192x2x2x512_S8192x2x1x512_0_0_0_0 : S8192x2x2x512.Slices ![0, 0, 0, 0] S8192x2x1x512
  shapeCasts_S8192x2x1x512_S8192x2x512 : S8192x2x1x512.ShapeCasts S8192x2x512
  slices_S8192x2x2x512_S8192x2x1x512_0_0_1_0 : S8192x2x2x512.Slices ![0, 0, 1, 0] S8192x2x1x512
  bcast_S8192x2x512_S8192x2x1x512_0_1_3 : S8192x2x512.BroadcastsInDim S8192x2x1x512 (![0, 1, 3] : Fin 3 → Fin S8192x2x1x512.rank)
  concatenates_S8192x2x1x512_S8192x2x1x512_S8192x2x2x512_d2 : Shape.Concatenates [S8192x2x1x512, S8192x2x1x512] S8192x2x2x512 2
  shapeCasts_S8192x2x2x512_S8192x2048 : S8192x2x2x512.ShapeCasts S8192x2048
  shapeCasts_S8192x2048_S8192x1x2x1024 : S8192x2048.ShapeCasts S8192x1x2x1024
  slices_S8192x1x2x1024_S8192x1x1x1024_0_0_0_0 : S8192x1x2x1024.Slices ![0, 0, 0, 0] S8192x1x1x1024
  shapeCasts_S8192x1x1x1024_S8192x1x1024 : S8192x1x1x1024.ShapeCasts S8192x1x1024
  slices_S8192x1x2x1024_S8192x1x1x1024_0_0_1_0 : S8192x1x2x1024.Slices ![0, 0, 1, 0] S8192x1x1x1024
  bcast_S8192x1x1024_S8192x1x1x1024_0_1_3 : S8192x1x1024.BroadcastsInDim S8192x1x1x1024 (![0, 1, 3] : Fin 3 → Fin S8192x1x1x1024.rank)
  concatenates_S8192x1x1x1024_S8192x1x1x1024_S8192x1x2x1024_d2 : Shape.Concatenates [S8192x1x1x1024, S8192x1x1x1024] S8192x1x2x1024 2
  shapeCasts_S8192x1x2x1024_S8192x2048 : S8192x1x2x1024.ShapeCasts S8192x2048
  bcast_S_S8192x2048 : S_.BroadcastsInDim S8192x2048 (![] : Fin 0 → Fin S8192x2048.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x2048_S8192x2048_S8192x8192_1_1_0_0_n_n_wf : DotDims.WF S8192x2048 S8192x2048 S8192x8192 [1] [1] [0] [0] [] []

variable [Facts₀]

def dot_S8192x2048_S8192x2048_S8192x8192_1_1_0_0_n_n : DotDims S8192x2048 S8192x2048 S8192x8192 where
  lhsContracting := [1]
  rhsContracting := [1]
  lhsNonContracting := [0]
  rhsNonContracting := [0]
  lhsBatch := []
  rhsBatch := []
  wf := dot_S8192x2048_S8192x2048_S8192x8192_1_1_0_0_n_n_wf

class Facts : Prop extends Facts₀ where

variable [Facts]
-- ==== Proof.Butterfly.lean ====
/-
  The normalized Walsh–Hadamard rotation of the rows of an [8192, 2048] array, as the programs compute it: eleven
  butterfly stages and one scaling. Stage `h` (`h` = 1, 2, 4, …, 1024; `a` = 1024 / `h`) views a row of length
  `n = a · 2 · h` as `a` groups of two halves of length `h`, and replaces each group `(u, v)` by `(u + v, u − v)`:
  the row is recast to [a, 2, h], its two halves are sliced out, added and subtracted, set side by side again along the
  middle axis, and the result recast to a row. After the last stage every entry is multiplied by the single-precision
  constant nearest `1 / √2048`. Both programs apply exactly this function to their first argument, so it is carried
  through the certificate as one function, `rot`, that is never opened.
-/
import Idealize.ShloMosaic.PureOps

noncomputable section

namespace Cert.Butterfly

open Idealize.ShloMosaic

variable {F : FTy → Type} [FloatOps F]

/-- One butterfly stage on the rows (length `n`) of a `[T, n]` array, `a` groups of two halves of length `h` each:
    `(u, v) ↦ (u + v, u − v)` in every group. The seven side conditions are the layout operations' own (the casts
    preserve the element count, the slices lie inside, the halves fill the middle axis); at literal sizes each is decided. -/
def stage (T a h n : Nat)
    (c1 : (⟨2, ![T, n]⟩ : Shape).ShapeCasts ⟨4, ![T, a, 2, h]⟩)
    (s0 : (⟨4, ![T, a, 2, h]⟩ : Shape).Slices ![0, 0, 0, 0] ⟨4, ![T, a, 1, h]⟩)
    (s1 : (⟨4, ![T, a, 2, h]⟩ : Shape).Slices ![0, 0, 1, 0] ⟨4, ![T, a, 1, h]⟩)
    (c2 : (⟨4, ![T, a, 1, h]⟩ : Shape).ShapeCasts ⟨3, ![T, a, h]⟩)
    (bc : (⟨3, ![T, a, h]⟩ : Shape).BroadcastsInDim ⟨4, ![T, a, 1, h]⟩ ![0, 1, 3])
    (ct : Shape.Concatenates [⟨4, ![T, a, 1, h]⟩, ⟨4, ![T, a, 1, h]⟩] ⟨4, ![T, a, 2, h]⟩ 2)
    (c3 : (⟨4, ![T, a, 2, h]⟩ : Shape).ShapeCasts ⟨2, ![T, n]⟩)
    (x : FVec F ⟨2, ![T, n]⟩ .f32) : FVec F ⟨2, ![T, n]⟩ .f32 :=
  shapeCast ⟨2, ![T, n]⟩ (concatenate ⟨4, ![T, a, 2, h]⟩ 2
    [⟨⟨4, ![T, a, 1, h]⟩, broadcastInDim ⟨4, ![T, a, 1, h]⟩ ![0, 1, 3] bc
        (addf (shapeCast ⟨3, ![T, a, h]⟩ (extractStridedSlice ⟨4, ![T, a, 1, h]⟩ ![0, 0, 0, 0] (shapeCast ⟨4, ![T, a, 2, h]⟩ x c1) s0) c2)
              (shapeCast ⟨3, ![T, a, h]⟩ (extractStridedSlice ⟨4, ![T, a, 1, h]⟩ ![0, 0, 1, 0] (shapeCast ⟨4, ![T, a, 2, h]⟩ x c1) s1) c2))⟩,
     ⟨⟨4, ![T, a, 1, h]⟩, broadcastInDim ⟨4, ![T, a, 1, h]⟩ ![0, 1, 3] bc
        (subf (shapeCast ⟨3, ![T, a, h]⟩ (extractStridedSlice ⟨4, ![T, a, 1, h]⟩ ![0, 0, 0, 0] (shapeCast ⟨4, ![T, a, 2, h]⟩ x c1) s0) c2)
              (shapeCast ⟨3, ![T, a, h]⟩ (extractStridedSlice ⟨4, ![T, a, 1, h]⟩ ![0, 0, 1, 0] (shapeCast ⟨4, ![T, a, 2, h]⟩ x c1) s1) c2))⟩]
    ct) c3

/-- Stage `h` of the 2048-point transform on 8192 rows, its side conditions decided. -/
local macro "bfly" a:num h:num x:term : term =>
  `(stage 8192 $a $h 2048 (by decide) (by decide) (by decide) (by decide) (by decide) (by decide) (by decide) $x)

/-- The eleven stages, shortest halves first. -/
def stages (x : FVec F ⟨2, ![8192, 2048]⟩ .f32) : FVec F ⟨2, ![8192, 2048]⟩ .f32 :=
  bfly 1 1024 (bfly 2 512 (bfly 4 256 (bfly 8 128 (bfly 16 64 (bfly 32 32 (bfly 64 16 (bfly 128 8 (bfly 256 4 (bfly 512 2
    (bfly 1024 1 x))))))))))

/-- The rotation: the eleven stages, then every entry times the constant nearest `1 / √2048`. -/
def rot (x : FVec F ⟨2, ![8192, 2048]⟩ .f32) : FVec F ⟨2, ![8192, 2048]⟩ .f32 :=
  mulf (stages x) (broadcastInDim ⟨2, ![8192, 2048]⟩ ![] (by decide) (constant ⟨0, ![]⟩ .f32 0x3CB504F3#32))

end Cert.Butterfly

end
-- ==== Proof.LibAfterSplit.lean ====
/-
  The buffer contents after a straight line of host operations, cut at any position: running the first `k` operations
  and then the rest is running the whole line. A long line whose intermediate results each have several readers can
  then be evaluated one stretch at a time, every stretch from a valuation that is just a variable, instead of as one term
  in which every shared intermediate is written out once per reader.
-/
import Idealize.ShloMosaic.Lib.StableHlo.Run

noncomputable section

namespace Cert.LibAfterSplit

open Idealize.ShloMosaic Idealize.ShloMosaic.StableHlo

variable {τ : Topo} {sig : RefSig} {Val : EltTy → Type}

/-- Two lines run one after the other: the second starts from what the first leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `k` operations. -/
theorem after_split (k : Nat) (l : List (HloOp τ sig Val)) (V : Valuation τ sig Val) :
    after l V = after (l.drop k) (after (l.take k) V) := by
  rw [← after_append, List.take_append_drop]

end Cert.LibAfterSplit

end
-- ==== Proof.KernelPrefix.lean ====
/-
  The Hadamard prefix of `Cert.KernelIdeal`'s host program, evaluated one butterfly stage at a time. The program's first 121 host
  operations are the eleven stages (eleven operations each: a cast to groups of two halves, the two slices, their casts,
  the sum and the difference, their two broadcasts, the concatenation, the cast back to rows); the line is cut at the
  stage boundaries, each stretch is shown to apply one `Butterfly.stage` to whatever its input buffer held, and the
  stretches are chained. Nothing here depends on the values: the valuation a stretch starts from is a variable.
-/
import proofs.«132718_j74680891343685_1_alg».proof.Proof.Gen.KernelIdeal.Frame
import proofs.«132718_j74680891343685_1_alg».proof.Proof.Butterfly
import proofs.«132718_j74680891343685_1_alg».proof.Proof.LibAfterSplit
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo
open Cert.Butterfly Cert.LibAfterSplit

variable {F : FTy → Type} [FloatOps F]

/-- The eleven stages' operations: the first 121 of the line. -/
abbrev Q : List (HloOp τ sig (Elt F)) := (hostOps0 (F := F)).take 121

/-! ## One stage per stretch of eleven operations -/

/-- Stage 1: halves of length 1, 1024 groups to a row. -/
theorem stage1 (V : Valuation τ sig (Elt F)) :
    after ((Q (F := F)).take 11) V (Proc.devRef .tc main_v10)
      = stage 8192 1024 1 2048 (by decide) (by decide) (by decide) (by decide) (by decide) (by decide) (by decide) (V (Proc.devRef .tc main_arg0)) := by
  show after [_, _, _, _, _, _, _, _, _, _, _] V _ = _
  after_results
  rfl

/-- Stage 2: halves of length 2, 512 groups to a row. -/
theorem stage2 (V : Valuation τ sig (Elt F)) :
    after (((Q (F := F)).drop 11).take 11) V (Proc.devRef .tc main_v21)
      = stage 8192 512 2 2048 (by decide) (by decide) (by decide) (by decide) (by decide) (by decide) (by decide) (V (Proc.devRef .tc main_v10)) := by
  show after [_, _, _, _, _, _, _, _, _, _, _] V _ = _
  after_results
  rfl

/-- Stage 3: halves of length 4, 256 groups to a row. -/
theorem stage3 (V : Valuation τ sig (Elt F)) :
    after ((((Q (F := F)).drop 11).drop 11).take 11) V (Proc.devRef .tc main_v32)
      = stage 8192 256 4 2048 (by decide) (by decide) (by decide) (by decide) (by decide) (by decide) (by decide) (V (Proc.devRef .tc main_v21)) := by
  show after [_, _, _, _, _, _, _, _, _, _, _] V _ = _
  after_results
  rfl

/-- Stage 4: halves of length 8, 128 groups to a row. -/
theorem stage4 (V : Valuation τ sig (Elt F)) :
    after (((((Q (F := F)).drop 11).drop 11).drop 11).take 11) V (Proc.devRef .tc main_v43)
      = stage 8192 128 8 2048 (by decide) (by decide) (by decide) (by decide) (by decide) (by decide) (by decide) (V (Proc.devRef .tc main_v32)) := by
  show after [_, _, _, _, _, _, _, _, _, _, _] V _ = _
  after_results
  rfl

/-- Stage 5: halves of length 16, 64 groups to a row. -/
theorem stage5 (V : Valuation τ sig (Elt F)) :
    after ((((((Q (F := F)).drop 11).drop 11).drop 11).drop 11).take 11) V (Proc.devRef .tc main_v54)
      = stage 8192 64 16 2048 (by decide) (by decide) (by decide) (by decide) (by decide) (by decide) (by decide) (V (Proc.devRef .tc main_v43)) := by
  show after [_, _, _, _, _, _, _, _, _, _, _] V _ = _
  after_results
  rfl

/-- Stage 6: halves of length 32, 32 groups to a row. -/
theorem stage6 (V : Valuation τ sig (Elt F)) :
    after (((((((Q (F := F)).drop 11).drop 11).drop 11).drop 11).drop 11).take 11) V (Proc.devRef .tc main_v65)
      = stage 8192 32 32 2048 (by decide) (by decide) (by decide) (by decide) (by decide) (by decide) (by decide) (V (Proc.devRef .tc main_v54)) := by
  show after [_, _, _, _, _, _, _, _, _, _, _] V _ = _
  after_results
  rfl

/-- Stage 7: halves of length 64, 16 groups to a row. -/
theorem stage7 (V : Valuation τ sig (Elt F)) :
    after ((((((((Q (F := F)).drop 11).drop 11).drop 11).drop 11).drop 11).drop 11).take 11) V (Proc.devRef .tc main_v76)
      = stage 8192 16 64 2048 (by decide) (by decide) (by decide) (by decide) (by decide) (by decide) (by decide) (V (Proc.devRef .tc main_v65)) := by
  show after [_, _, _, _, _, _, _, _, _, _, _] V _ = _
  after_results
  rfl

/-- Stage 8: halves of length 128, 8 groups to a row. -/
theorem stage8 (V : Valuation τ sig (Elt F)) :
    after (((((((((Q (F := F)).drop 11).drop 11).drop 11).drop 11).drop 11).drop 11).drop 11).take 11) V (Proc.devRef .tc main_v87)
      = stage 8192 8 128 2048 (by decide) (by decide) (by decide) (by decide) (by decide) (by decide) (by decide) (V (Proc.devRef .tc main_v76)) := by
  show after [_, _, _, _, _, _, _, _, _, _, _] V _ = _
  after_results
  rfl

/-- Stage 9: halves of length 256, 4 groups to a row. -/
theorem stage9 (V : Valuation τ sig (Elt F)) :
    after ((((((((((Q (F := F)).drop 11).drop 11).drop 11).drop 11).drop 11).drop 11).drop 11).drop 11).take 11) V (Proc.devRef .tc main_v98)
      = stage 8192 4 256 2048 (by decide) (by decide) (by decide) (by decide) (by decide) (by decide) (by decide) (V (Proc.devRef .tc main_v87)) := by
  show after [_, _, _, _, _, _, _, _, _, _, _] V _ = _
  after_results
  rfl

/-- Stage 10: halves of length 512, 2 groups to a row. -/
theorem stage10 (V : Valuation τ sig (Elt F)) :
    after (((((((((((Q (F := F)).drop 11).drop 11).drop 11).drop 11).drop 11).drop 11).drop 11).drop 11).drop 11).take 11) V (Proc.devRef .tc main_v109)
      = stage 8192 2 512 2048 (by decide) (by decide) (by decide) (by decide) (by decide) (by decide) (by decide) (V (Proc.devRef .tc main_v98)) := by
  show after [_, _, _, _, _, _, _, _, _, _, _] V _ = _
  after_results
  rfl

/-- Stage 11: halves of length 1024, 1 group to a row. -/
theorem stage11 (V : Valuation τ sig (Elt F)) :
    after ((((((((((((Q (F := F)).drop 11).drop 11).drop 11).drop 11).drop 11).drop 11).drop 11).drop 11).drop 11).drop 11).take 11) V (Proc.devRef .tc main_v120)
      = stage 8192 1 1024 2048 (by decide) (by decide) (by decide) (by decide) (by decide) (by decide) (by decide) (V (Proc.devRef .tc main_v109)) := by
  show after [_, _, _, _, _, _, _, _, _, _, _] V _ = _
  after_results
  rfl

/-! ## The eleven stretches chained -/

/-- After the first 121 operations the last stage's row buffer holds the eleven stages of the first argument. -/
theorem stages_eq (V : Valuation τ sig (Elt F)) :
    after (Q (F := F)) V (Proc.devRef .tc main_v120) = stages (V (Proc.devRef .tc main_arg0)) := by
  rw [after_split 11 (Q (F := F)) V,
    after_split 11 ((Q (F := F)).drop 11),
    after_split 11 (((Q (F := F)).drop 11).drop 11),
    after_split 11 ((((Q (F := F)).drop 11).drop 11).drop 11),
    after_split 11 (((((Q (F := F)).drop 11).drop 11).drop 11).drop 11),
    after_split 11 ((((((Q (F := F)).drop 11).drop 11).drop 11).drop 11).drop 11),
    after_split 11 (((((((Q (F := F)).drop 11).drop 11).drop 11).drop 11).drop 11).drop 11),
    after_split 11 ((((((((Q (F := F)).drop 11).drop 11).drop 11).drop 11).drop 11).drop 11).drop 11),
    after_split 11 (((((((((Q (F := F)).drop 11).drop 11).drop 11).drop 11).drop 11).drop 11).drop 11).drop 11),
    after_split 11 ((((((((((Q (F := F)).drop 11).drop 11).drop 11).drop 11).drop 11).drop 11).drop 11).drop 11).drop 11),
    after_split 11 (((((((((((Q (F := F)).drop 11).drop 11).drop 11).drop 11).drop 11).drop 11).drop 11).drop 11).drop 11).drop 11)]
  show after [] _ (Proc.devRef .tc main_v120) = _
  rw [after_nil, stage11, stage10, stage9, stage8, stage7, stage6, stage5, stage4, stage3, stage2, stage1]
  rfl

/-! ## The arguments the stages do not touch -/

/-- No operation of the line writes `main_arg1`. -/
theorem notW_main_arg1 : ∀ op ∈ (hostOps0 (F := F) : List (HloOp τ sig (Elt F))), (Proc.devRef .tc main_arg1 : DevRef τ sig) ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))

/-- So the first 121 operations leave it as it was. -/
theorem keep_main_arg1 (V : Valuation τ sig (Elt F)) :
    after (Q (F := F)) V (Proc.devRef .tc main_arg1) = V (Proc.devRef .tc main_arg1) :=
  after_of_forall_not_mem (b := Proc.devRef .tc main_arg1) _ _ fun op hop => notW_main_arg1 op (List.mem_of_mem_take hop)

/-- No operation of the line writes `main_arg2`. -/
theorem notW_main_arg2 : ∀ op ∈ (hostOps0 (F := F) : List (HloOp τ sig (Elt F))), (Proc.devRef .tc main_arg2 : DevRef τ sig) ∉ op.writes :=
  List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide))

/-- So the first 121 operations leave it as it was. -/
theorem keep_main_arg2 (V : Valuation τ sig (Elt F)) :
    after (Q (F := F)) V (Proc.devRef .tc main_arg2) = V (Proc.devRef .tc main_arg2) :=
  after_of_forall_not_mem (b := Proc.devRef .tc main_arg2) _ _ fun op hop => notW_main_arg2 op (List.mem_of_mem_take hop)

/-! ## The three arrays the kernel's windows read, as the region finds them -/

/-- The activations: the rotation of the first argument, narrowed to bf16. -/
theorem entry_x (V : Valuation τ sig (Elt F)) :
    after (hostOps0 (F := F)) V (Proc.devRef .tc main_v123)
      = (truncf .bf16 (rot (V (Proc.devRef .tc main_arg0))) bitsLt_bf16_f32 : FVec F S8192x2048 .bf16) := by
  have h := stages_eq V
  rw [after_split 121 (hostOps0 (F := F)) V]
  generalize after (Q (F := F)) V = P at h ⊢
  show after [_, _, _, _, _, _] P _ = _
  after_results
  rw [h]
  rfl

/-- The weights: the second argument, narrowed to bf16. -/
theorem entry_w (V : Valuation τ sig (Elt F)) :
    after (hostOps0 (F := F)) V (Proc.devRef .tc main_v124)
      = (truncf .bf16 (V (Proc.devRef .tc main_arg1)) bitsLt_bf16_f32 : FVec F S8192x2048 .bf16) := by
  have h := keep_main_arg1 V
  rw [after_split 121 (hostOps0 (F := F)) V]
  generalize after (Q (F := F)) V = P at h ⊢
  show after [_, _, _, _, _, _] P _ = _
  after_results
  rw [h]

/-- The bias: the third argument as one row. -/
theorem entry_b (V : Valuation τ sig (Elt F)) :
    after (hostOps0 (F := F)) V (Proc.devRef .tc main_v125)
      = (shapeCast S1x8192 (V (Proc.devRef .tc main_arg2)) shapeCasts_S8192_S1x8192 : FVec F S1x8192 .f32) := by
  have h := keep_main_arg2 V
  rw [after_split 121 (hostOps0 (F := F)) V]
  generalize after (Q (F := F)) V = P at h ⊢
  show after [_, _, _, _, _, _] P _ = _
  after_results
  rw [h]
  rfl

end Cert.KernelIdeal.Prefix

end
-- ==== Proof.LibRowDot.lean ====
/-
  A matrix product that contracts the LAST axis of both of its rank-2 operands — the rows of the first against the rows of
  the second, `A · Bᵀ`, dimension numbers `DotDims.transposedRhs M K N` — read at an output index `(p, q)`: over the
  extended reals it is the plain sum, over the shared axis, of the products `A (p, d) · B (q, d)`. Stated for the vector
  unit's product into a zero accumulator and for the host's `dot_general`; the two therefore agree entry by entry,
  whatever the sizes of the blocks either is applied to.
-/
import Idealize.ShloMosaic.PureOps.Ideal.Laws
import Idealize.ShloMosaic.Lib.ValueIdx

noncomputable section

open scoped BigOperators

namespace Cert.LibRowDot

open Idealize.ShloMosaic Idealize.ShloMosaic.ValueIdx

variable {M K N : Nat}

/-- The contraction runs over one axis … -/
theorem contr_rank : (DotDims.transposedRhs M K N).contr.rank = 1 := rfl

/-- … of the operands' common row length. -/
theorem contr_size : (DotDims.transposedRhs M K N).contr.size ⟨0, by rw [contr_rank]; exact Nat.one_pos⟩ = K := rfl

/-- The left operand is read in the output's row … -/
theorem lhs_row (j : (⟨2, ![M, N]⟩ : Shape).Idx) (k : (DotDims.transposedRhs M K N).contr.Idx) :
    ((DotDims.transposedRhs M K N).lhsIdx j k 0).val = (j 0).val := by
  simp [DotDims.lhsIdx, DotDims.transposedRhs]
  rfl

/-- … and the right operand in the row the output's column names. -/
theorem rhs_row (j : (⟨2, ![M, N]⟩ : Shape).Idx) (k : (DotDims.transposedRhs M K N).contr.Idx) :
    ((DotDims.transposedRhs M K N).rhsIdx j k 0).val = (j 1).val := by
  simp [DotDims.rhsIdx, DotDims.transposedRhs]
  rfl

/-- The contraction's sum, re-indexed by the position `d` along the shared axis. -/
theorem sum_rows (l : (⟨2, ![M, K]⟩ : Shape).Idx → EReal) (r : (⟨2, ![N, K]⟩ : Shape).Idx → EReal)
    (j : (⟨2, ![M, N]⟩ : Shape).Idx) :
    ∑ k : (DotDims.transposedRhs M K N).contr.Idx,
        l ((DotDims.transposedRhs M K N).lhsIdx j k) * r ((DotDims.transposedRhs M K N).rhsIdx j k)
      = ∑ d : Fin K, l (ix2 (j 0) d) * r (ix2 (j 1) d) := by
  refine (Equiv.sum_comp (contrEquiv1 (DotDims.transposedRhs M K N) K contr_rank contr_size).symm _).symm.trans ?_
  refine Finset.sum_congr rfl fun d _ => ?_
  have hl : (DotDims.transposedRhs M K N).lhsIdx j ((contrEquiv1 (DotDims.transposedRhs M K N) K contr_rank contr_size).symm d)
      = ix2 (j 0) d := by
    funext a; apply Fin.ext
    match a with
    | ⟨0, _⟩ => exact lhs_row j _
    | ⟨1, _⟩ =>
      exact ((DotDims.transposedRhs M K N).lhsIdx_val_of_single (cl := 1) rfl j _).trans
        (contrEquiv1_symm_val (DotDims.transposedRhs M K N) K contr_rank contr_size d)
  have hr : (DotDims.transposedRhs M K N).rhsIdx j ((contrEquiv1 (DotDims.transposedRhs M K N) K contr_rank contr_size).symm d)
      = ix2 (j 1) d := by
    funext a; apply Fin.ext
    match a with
    | ⟨0, _⟩ => exact rhs_row j _
    | ⟨1, _⟩ =>
      exact ((DotDims.transposedRhs M K N).rhsIdx_val_of_single (cr := 1) rfl j _).trans
        (contrEquiv1_symm_val (DotDims.transposedRhs M K N) K contr_rank contr_size d)
  rw [hl, hr]
  rfl

/-- The vector unit's product into a zero accumulator, at `(p, q)`. -/
theorem matmul_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ d : Fin K, l (ix2 p d) * r (ix2 q d) :=
  (Ideal.matmul_constant_zero_apply _ prec l r (ix2 p q)).trans (sum_rows l r (ix2 p q))

/-- The host's `dot_general`, at `(p, q)`, whatever its schedule. -/
theorem dotGeneral_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q)
      = ∑ d : Fin K, l (ix2 p d) * r (ix2 q d) :=
  (Ideal.dotGeneral_apply _ prec sched l r (ix2 p q)).trans (sum_rows l r (ix2 p q))

end Cert.LibRowDot

end
-- ==== Proof.KernelBlock.lean ====
/-
  One tile of the kernel. At a grid point the body loads a 512-row block of the activations, a 1024-row block of the
  weights and the matching 1024 entries of the bias, and stores `x · wᵀ + bias`: entry `(p, q)` of the stored tile is row
  `p` of the activations' block against row `q` of the weights' block — the whole contraction, 2048 terms, into a zero
  accumulator — plus entry `q` of the bias row, which the body broadcasts down the tile's rows.
-/
import proofs.«132718_j74680891343685_1_alg».proof.Proof.Gen.KernelIdeal.Skeleton
import proofs.«132718_j74680891343685_1_alg».proof.Proof.LibRowDot
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The stored tile at `(p, q)`. -/
theorem payload_apply (x : FVec Ideal S512x2048 .bf16) (w : FVec Ideal S1024x2048 .bf16) (b : FVec Ideal S1x1024 .f32)
    (p : Fin 512) (q : Fin 1024) :
    k0_pay1 (F := Ideal) x w b (ix2 p q) = (∑ d : Fin 2048, x (ix2 p d) * w (ix2 q d)) + b (ix2 (0 : Fin 1) q) := by
  unfold k0_pay1
  simp only [shapeCast_self]
  refine (addf_apply _ _ _).trans ?_
  refine congrArg₂ (· + ·) ?_ ?_
  · exact Cert.LibRowDot.matmul_zero_apply none x w p q
  · exact broadcastTo_1b_ab_apply b _ p q

end Cert.KernelIdeal.Block

end
-- ==== Proof.Affine.lean ====
/-
  What both programs compute from the rotated activations `h`, the weights `w` and the bias `b`: the linear layer
  `out[t, o] = ∑_d h[t, d] · w[o, d] + b[o]` over the extended reals — row `t` of the activations against row `o` of
  the weights, then the bias of column `o`. The kernel reaches it tile by tile (512 rows by 1024 columns, the whole
  contraction inside each tile), the reference with one product over the whole arrays; an entry is the same sum either way,
  so no rearrangement of a sum, and no finiteness of the inputs, is needed to join them.
-/
import proofs.«132718_j74680891343685_1_alg».proof.Proof.LibRowDot

noncomputable section

open scoped BigOperators

namespace Cert.Affine

open Idealize.ShloMosaic Idealize.ShloMosaic.ValueIdx

/-- The linear layer, index by index. -/
def affine (h w : FVec Ideal ⟨2, ![8192, 2048]⟩ .f32) (b : FVec Ideal ⟨1, ![8192]⟩ .f32) :
    FVec Ideal ⟨2, ![8192, 8192]⟩ .f32 :=
  fun i => (∑ d : Fin 2048, h (ix2 (i 0) d) * w (ix2 (i 1) d)) + b (ix1 (i 1))

/-- At row `t` and column `o`. -/
theorem affine_apply (h w : FVec Ideal ⟨2, ![8192, 2048]⟩ .f32) (b : FVec Ideal ⟨1, ![8192]⟩ .f32) (t o : Fin 8192) :
    affine h w b (ix2 t o) = (∑ d : Fin 2048, h (ix2 t d) * w (ix2 o d)) + b (ix1 o) := rfl

end Cert.Affine

end
-- ==== Proof.KernelValue.lean ====
/-
  The kernel's result array as one function of the three arguments. The grid is 16 × 8: point `(i, j)` reads rows
  `512 i … 512 i + 511` of the rotated activations, rows `1024 j … 1024 j + 1023` of the weights and entries
  `1024 j … 1024 j + 1023` of the bias row, and writes the tile of rows `512 i …` and columns `1024 j …` of the
  result. Entry `(p, q)` of that tile is the linear layer at row `512 i + p` and column `1024 j + q` — the tile's row
  of activations IS that row of the array, its row of weights IS row `1024 j + q` of the weights, nothing is cut short
  since every tile holds the whole contraction — and the 128 tiles cover the array. So after the run the result array is
  `affine (rot x) w b` of the arguments as launched.
-/
import proofs.«132718_j74680891343685_1_alg».proof.Proof.Gen.KernelIdeal.Value
import proofs.«132718_j74680891343685_1_alg».proof.Proof.KernelPrefix
import proofs.«132718_j74680891343685_1_alg».proof.Proof.KernelBlock
import proofs.«132718_j74680891343685_1_alg».proof.Proof.Affine
import Idealize.ShloMosaic.Lib.Pipeline.Value
import Idealize.ShloMosaic.Lib.ValueIdx

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.Butterfly Cert.Affine

variable (m : (ℓ : Loc nD τ sig) → Buf (Elt Ideal) ℓ) (ρ : Dev nD → PrngReg)

theorem hz : (![0, 0] : Fin 2 → Nat) = fun _ => 0 := funext fun a => by fin_cases a <;> rfl

/-! ## The arrays the windows read, as the region finds them -/

/-- The activations' array: the rotation of the first argument (the narrowing to bf16 is the identity here). -/
theorem entry_x (c : Dev nD) (i : S8192x2048.Idx) :
    (V m c main_v123 i : EReal) = rot (F := Ideal) (m ((c : Thread nD τ).loc main_arg0)) i := by
  show StableHlo.after hostOps0 (fun b => m (c, b)) (Proc.devRef .tc main_v123) i = _
  rw [Prefix.entry_x]
  rfl

/-- The weights' array: the second argument. -/
theorem entry_w (c : Dev nD) (i : S8192x2048.Idx) :
    V m c main_v124 i = m ((c : Thread nD τ).loc main_arg1) i := by
  show StableHlo.after hostOps0 (fun b => m (c, b)) (Proc.devRef .tc main_v124) i = _
  rw [Prefix.entry_w]
  rfl

/-- The bias row: entry `(0, o)` is entry `o` of the third argument. -/
theorem entry_b (c : Dev nD) (o : Fin 8192) :
    V m c main_v125 (ix2 (0 : Fin 1) o) = m ((c : Thread nD τ).loc main_arg2) (ix1 o) := by
  show StableHlo.after hostOps0 (fun b => m (c, b)) (Proc.devRef .tc main_v125) (ix2 (0 : Fin 1) o) = _
  rw [Prefix.entry_b]
  refine (shapeCast_addUnit_apply ![8192] _ _ (ix2 (0 : Fin 1) o)).trans ?_
  refine congrArg _ (funext fun a => ?_)
  match a with
  | ⟨0, _⟩ => rfl

/-! ## What a point writes back -/

/-- The result the certificate claims: the linear layer of the rotated first argument, the second and the third. -/
abbrev out (c : Dev nD) : S8192x8192.Idx → EReal :=
  affine (rot (F := Ideal) (m ((c : Thread nD τ).loc main_arg0))) (m ((c : Thread nD τ).loc main_arg1)) (m ((c : Thread nD τ).loc main_arg2))

/-- The printed index maps over the 128 points: the activations' block follows the tile's row block, the weights' and the
    bias's blocks follow its column block, and neither of those moves along the contraction. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 7 :=
  (by decide +kernel : ∀ t : Fin grid0.N, _)

/-- Every tile of the 16 × 8 tiling is some point's. -/
theorem idx_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-- Point `t` writes back tile `t` of `out`. -/
theorem flushed_eq (c : Dev nD) (t : Fin cfg0.N) :
    (dats m 0 c).flushed 3 t = ((cfg0.win 3).blk t).view.read (Elt Ideal) (out m c) := by
  rw [Value.flushed3]
  unfold out0_3
  rw [View.canon_unit_zero hz]
  simp only [View.ld_unit_zero (S := S512x2048) hz, View.ld_unit_zero (S := S1024x2048) hz, View.ld_unit_zero (S := S1x1024) hz]
  obtain ⟨e0, e1, e2, e3, e4, e5, b0, b1⟩ := idx_facts t
  funext j
  obtain ⟨p, q, rfl⟩ : ∃ (p : Fin 512) (q : Fin 1024), j = ix2 p q := ⟨j 0, j 1, eq_ix2 j⟩
  show k0_pay1 (iblk m c 0 t) (iblk m c 1 t) (iblk m c 2 t) (ix2 p q) = out m c (((cfg0.win 3).blk t).view.emb (ix2 p q))
  refine (Block.payload_apply (iblk m c 0 t) (iblk m c 1 t) (iblk m c 2 t) p q).trans ?_
  -- the array row and column this tile entry sits at
  have hT : win0_3.index t (0 : Fin 2) * 512 + p.val < 8192 := by have := p.isLt; omega
  have hO : win0_3.index t (1 : Fin 2) * 1024 + q.val < 8192 := by have := q.isLt; omega
  have hE : ((cfg0.win 3).blk t).view.emb (ix2 p q)
      = ix2 (⟨win0_3.index t (0 : Fin 2) * 512 + p.val, hT⟩ : Fin 8192) (⟨win0_3.index t (1 : Fin 2) * 1024 + q.val, hO⟩ : Fin 8192) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  rw [hE]
  refine Eq.trans ?_ (affine_apply _ _ _ _ _).symm
  -- the three block reads, each where the tile's position says
  have hx : ∀ d : Fin 2048, iblk m c 0 t (ix2 p d)
      = rot (F := Ideal) (m ((c : Thread nD τ).loc main_arg0)) (ix2 (⟨win0_3.index t (0 : Fin 2) * 512 + p.val, hT⟩ : Fin 8192) d) := fun d => by
    refine Eq.trans ?_ (entry_x m c _)
    show V m c main_v123 (((cfg0.win 0).blk t).view.emb (ix2 p d)) = V m c main_v123 _
    refine congrArg _ (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 2048 + 1 * d.val = d.val; omega
  have hw : ∀ d : Fin 2048, iblk m c 1 t (ix2 q d)
      = m ((c : Thread nD τ).loc main_arg1) (ix2 (⟨win0_3.index t (1 : Fin 2) * 1024 + q.val, hO⟩ : Fin 8192) d) := fun d => by
    refine Eq.trans ?_ (entry_w m c _)
    show V m c main_v124 (((cfg0.win 1).blk t).view.emb (ix2 q d)) = V m c main_v124 _
    refine congrArg _ (funext fun a => Fin.ext ?_)
    match a with
    | ⟨0, _⟩ => show win0_1.index t (0 : Fin 2) * 1024 + 1 * q.val = win0_3.index t (1 : Fin 2) * 1024 + q.val; omega
    | ⟨1, _⟩ => show win0_1.index t (1 : Fin 2) * 2048 + 1 * d.val = d.val; omega
  have hb : iblk m c 2 t (ix2 (0 : Fin 1) q)
      = m ((c : Thread nD τ).loc main_arg2) (ix1 (⟨win0_3.index t (1 : Fin 2) * 1024 + q.val, hO⟩ : Fin 8192)) := by
    refine Eq.trans ?_ (entry_b m c _)
    show V m c main_v125 (((cfg0.win 2).blk t).view.emb (ix2 (0 : Fin 1) q)) = V m c main_v125 _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega
  refine congrArg₂ (· + ·) (Finset.sum_congr rfl fun d _ => ?_) hb
  rw [hx d, hw d]

/-! ## The tiles cover the array -/

/-- An index of the array is in point `t`'s tile iff each coordinate is in the tile's range on its axis. -/
theorem mem_blk (t : Fin cfg0.N) (i : S8192x8192.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v126).slice (win0_3.rect t)).set ↔ _
  rw [View.set_slice_whole, Rect.mem_set_unit]
  exact Iff.rfl

/-- Every index is in the tile of the point whose block indices are its row over 512 and its column over 1024. -/
theorem cover (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## The array after the run, and the run -/

/-- After the 128 write-backs the result array is `out`. -/
theorem final (c : Dev nD) : (dats m 0 c).arrAt 3 cfg0.N = out m c :=
  (dats m 0 c).arrAt_eq_of_cover 3 (out m c) (fun t _ => flushed_eq m c t) cover

/-- The kernel's run: every weakly fair execution terminates with the result array at the linear layer of the rotated
    first argument, the second and the third, and the arguments as launched. -/
theorem run : θ_run defs (onTc (τ := τ) (main (F := Ideal))) ⟨m, fun _ => 0, ρ⟩ fun r => ∀ c : Dev nD,
      r.2.mem ((c : Thread nD τ).loc main_v126) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceLine.lean ====
/-
  The reference program's @main as the list of its 128 host operations — the eleven butterfly stages and the scaling that
  make the Hadamard rotation of the first argument, then the product of the rotated rows with the rows of the second
  argument, the third argument broadcast over the rows, and their sum — and its run: every weakly fair execution
  terminates with every buffer at the fold of the operations' results over the launch contents.
-/
import proofs.«132718_j74680891343685_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 128 operations, in order. -/
abbrev ops : List (HloOp τ sig (Elt F)) :=
  [ reshape main_arg0 main_v0 rfl shapeCasts_S8192x2048_S8192x1024x2x1,
    unary main_v0 main_v1 ((extractStridedSlice S8192x1024x1x1 ![0, 0, 0, 0] · slices_S8192x1024x2x1_S8192x1024x1x1_0_0_0_0) : (⟨S8192x1024x2x1, .f32⟩ : BufTy).Contents (Elt F) → (⟨S8192x1024x1x1, .f32⟩ : BufTy).Contents (Elt F)),
    reshape main_v1 main_v2 rfl shapeCasts_S8192x1024x1x1_S8192x1024x1,
    unary main_v0 main_v3 ((extractStridedSlice S8192x1024x1x1 ![0, 0, 1, 0] · slices_S8192x1024x2x1_S8192x1024x1x1_0_0_1_0) : (⟨S8192x1024x2x1, .f32⟩ : BufTy).Contents (Elt F) → (⟨S8192x1024x1x1, .f32⟩ : BufTy).Contents (Elt F)),
    reshape main_v3 main_v4 rfl shapeCasts_S8192x1024x1x1_S8192x1024x1,
    binary main_v2 main_v4 main_v5 (addf : (⟨S8192x1024x1, .f32⟩ : BufTy).Contents (Elt F) → (⟨S8192x1024x1, .f32⟩ : BufTy).Contents (Elt F) → (⟨S8192x1024x1, .f32⟩ : BufTy).Contents (Elt F)),
    binary main_v2 main_v4 main_v6 (subf : (⟨S8192x1024x1, .f32⟩ : BufTy).Contents (Elt F) → (⟨S8192x1024x1, .f32⟩ : BufTy).Contents (Elt F) → (⟨S8192x1024x1, .f32⟩ : BufTy).Contents (Elt F)),
    unary main_v5 main_v7 (broadcastInDim S8192x1024x1x1 ![0, 1, 3] bcast_S8192x1024x1_S8192x1024x1x1_0_1_3 : (⟨S8192x1024x1, .f32⟩ : BufTy).Contents (Elt F) → (⟨S8192x1024x1x1, .f32⟩ : BufTy).Contents (Elt F)),
    unary main_v6 main_v8 (broadcastInDim S8192x1024x1x1 ![0, 1, 3] bcast_S8192x1024x1_S8192x1024x1x1_0_1_3 : (⟨S8192x1024x1, .f32⟩ : BufTy).Contents (Elt F) → (⟨S8192x1024x1x1, .f32⟩ : BufTy).Contents (Elt F)),
    binary main_v7 main_v8 main_v9 ((fun a b => concatenate S8192x1024x2x1 2 [⟨S8192x1024x1x1, a⟩, ⟨S8192x1024x1x1, b⟩] concatenates_S8192x1024x1x1_S8192x1024x1x1_S8192x1024x2x1_d2) : (⟨S8192x1024x1x1, .f32⟩ : BufTy).Contents (Elt F) → (⟨S8192x1024x1x1, .f32⟩ : BufTy).Contents (Elt F) → (⟨S8192x1024x2x1, .f32⟩ : BufTy).Contents (Elt F)),
    reshape main_v9 main_v10 rfl shapeCasts_S8192x1024x2x1_S8192x2048,
    reshape main_v10 main_v11 rfl shapeCasts_S8192x2048_S8192x512x2x2,
    unary main_v11 main_v12 ((extractStridedSlice S8192x512x1x2 ![0, 0, 0, 0] · slices_S8192x512x2x2_S8192x512x1x2_0_0_0_0) : (⟨S8192x512x2x2, .f32⟩ : BufTy).Contents (Elt F) → (⟨S8192x512x1x2, .f32⟩ : BufTy).Contents (Elt F)),
    reshape main_v12 main_v13 rfl shapeCasts_S8192x512x1x2_S8192x512x2,
    unary main_v11 main_v14 ((extractStridedSlice S8192x512x1x2 ![0, 0, 1, 0] · slices_S8192x512x2x2_S8192x512x1x2_0_0_1_0) : (⟨S8192x512x2x2, .f32⟩ : BufTy).Contents (Elt F) → (⟨S8192x512x1x2, .f32⟩ : BufTy).Contents (Elt F)),
    reshape main_v14 main_v15 rfl shapeCasts_S8192x512x1x2_S8192x512x2,
    binary main_v13 main_v15 main_v16 (addf : (⟨S8192x512x2, .f32⟩ : BufTy).Contents (Elt F) → (⟨S8192x512x2, .f32⟩ : BufTy).Contents (Elt F) → (⟨S8192x512x2, .f32⟩ : BufTy).Contents (Elt F)),
    binary main_v13 main_v15 main_v17 (subf : (⟨S8192x512x2, .f32⟩ : BufTy).Contents (Elt F) → (⟨S8192x512x2, .f32⟩ : BufTy).Contents (Elt F) → (⟨S8192x512x2, .f32⟩ : BufTy).Contents (Elt F)),
    unary main_v16 main_v18 (broadcastInDim S8192x512x1x2 ![0, 1, 3] bcast_S8192x512x2_S8192x512x1x2_0_1_3 : (⟨S8192x512x2, .f32⟩ : BufTy).Contents (Elt F) → (⟨S8192x512x1x2, .f32⟩ : BufTy).Contents (Elt F)),
    unary main_v17 main_v19 (broadcastInDim S8192x512x1x2 ![0, 1, 3] bcast_S8192x512x2_S8192x512x1x2_0_1_3 : (⟨S8192x512x2, .f32⟩ : BufTy).Contents (Elt F) → (⟨S8192x512x1x2, .f32⟩ : BufTy).Contents (Elt F)),
    binary main_v18 main_v19 main_v20 ((fun a b => concatenate S8192x512x2x2 2 [⟨S8192x512x1x2, a⟩, ⟨S8192x512x1x2, b⟩] concatenates_S8192x512x1x2_S8192x512x1x2_S8192x512x2x2_d2) : (⟨S8192x512x1x2, .f32⟩ : BufTy).Contents (Elt F) → (⟨S8192x512x1x2, .f32⟩ : BufTy).Contents (Elt F) → (⟨S8192x512x2x2, .f32⟩ : BufTy).Contents (Elt F)),
    reshape main_v20 main_v21 rfl shapeCasts_S8192x512x2x2_S8192x2048,
    reshape main_v21 main_v22 rfl shapeCasts_S8192x2048_S8192x256x2x4,
    unary main_v22 main_v23 ((extractStridedSlice S8192x256x1x4 ![0, 0, 0, 0] · slices_S8192x256x2x4_S8192x256x1x4_0_0_0_0) : (⟨S8192x256x2x4, .f32⟩ : BufTy).Contents (Elt F) → (⟨S8192x256x1x4, .f32⟩ : BufTy).Contents (Elt F)),
    reshape main_v23 main_v24 rfl shapeCasts_S8192x256x1x4_S8192x256x4,
    unary main_v22 main_v25 ((extractStridedSlice S8192x256x1x4 ![0, 0, 1, 0] · slices_S8192x256x2x4_S8192x256x1x4_0_0_1_0) : (⟨S8192x256x2x4, .f32⟩ : BufTy).Contents (Elt F) → (⟨S8192x256x1x4, .f32⟩ : BufTy).Contents (Elt F)),
    reshape main_v25 main_v26 rfl shapeCasts_S8192x256x1x4_S8192x256x4,
    binary main_v24 main_v26 main_v27 (addf : (⟨S8192x256x4, .f32⟩ : BufTy).Contents (Elt F) → (⟨S8192x256x4, .f32⟩ : BufTy).Contents (Elt F) → (⟨S8192x256x4, .f32⟩ : BufTy).Contents (Elt F)),
    binary main_v24 main_v26 main_v28 (subf : (⟨S8192x256x4, .f32⟩ : BufTy).Contents (Elt F) → (⟨S8192x256x4, .f32⟩ : BufTy).Contents (Elt F) → (⟨S8192x256x4, .f32⟩ : BufTy).Contents (Elt F)),
    unary main_v27 main_v29 (broadcastInDim S8192x256x1x4 ![0, 1, 3] bcast_S8192x256x4_S8192x256x1x4_0_1_3 : (⟨S8192x256x4, .f32⟩ : BufTy).Contents (Elt F) → (⟨S8192x256x1x4, .f32⟩ : BufTy).Contents (Elt F)),
    unary main_v28 main_v30 (broadcastInDim S8192x256x1x4 ![0, 1, 3] bcast_S8192x256x4_S8192x256x1x4_0_1_3 : (⟨S8192x256x4, .f32⟩ : BufTy).Contents (Elt F) → (⟨S8192x256x1x4, .f32⟩ : BufTy).Contents (Elt F)),
    binary main_v29 main_v30 main_v31 ((fun a b => concatenate S8192x256x2x4 2 [⟨S8192x256x1x4, a⟩, ⟨S8192x256x1x4, b⟩] concatenates_S8192x256x1x4_S8192x256x1x4_S8192x256x2x4_d2) : (⟨S8192x256x1x4, .f32⟩ : BufTy).Contents (Elt F) → (⟨S8192x256x1x4, .f32⟩ : BufTy).Contents (Elt F) → (⟨S8192x256x2x4, .f32⟩ : BufTy).Contents (Elt F)),
    reshape main_v31 main_v32 rfl shapeCasts_S8192x256x2x4_S8192x2048,
    reshape main_v32 main_v33 rfl shapeCasts_S8192x2048_S8192x128x2x8,
    unary main_v33 main_v34 ((extractStridedSlice S8192x128x1x8 ![0, 0, 0, 0] · slices_S8192x128x2x8_S8192x128x1x8_0_0_0_0) : (⟨S8192x128x2x8, .f32⟩ : BufTy).Contents (Elt F) → (⟨S8192x128x1x8, .f32⟩ : BufTy).Contents (Elt F)),
    reshape main_v34 main_v35 rfl shapeCasts_S8192x128x1x8_S8192x128x8,
    unary main_v33 main_v36 ((extractStridedSlice S8192x128x1x8 ![0, 0, 1, 0] · slices_S8192x128x2x8_S8192x128x1x8_0_0_1_0) : (⟨S8192x128x2x8, .f32⟩ : BufTy).Contents (Elt F) → (⟨S8192x128x1x8, .f32⟩ : BufTy).Contents (Elt F)),
    reshape main_v36 main_v37 rfl shapeCasts_S8192x128x1x8_S8192x128x8,
    binary main_v35 main_v37 main_v38 (addf : (⟨S8192x128x8, .f32⟩ : BufTy).Contents (Elt F) → (⟨S8192x128x8, .f32⟩ : BufTy).Contents (Elt F) → (⟨S8192x128x8, .f32⟩ : BufTy).Contents (Elt F)),
    binary main_v35 main_v37 main_v39 (subf : (⟨S8192x128x8, .f32⟩ : BufTy).Contents (Elt F) → (⟨S8192x128x8, .f32⟩ : BufTy).Contents (Elt F) → (⟨S8192x128x8, .f32⟩ : BufTy).Contents (Elt F)),
    unary main_v38 main_v40 (broadcastInDim S8192x128x1x8 ![0, 1, 3] bcast_S8192x128x8_S8192x128x1x8_0_1_3 : (⟨S8192x128x8, .f32⟩ : BufTy).Contents (Elt F) → (⟨S8192x128x1x8, .f32⟩ : BufTy).Contents (Elt F)),
    unary main_v39 main_v41 (broadcastInDim S8192x128x1x8 ![0, 1, 3] bcast_S8192x128x8_S8192x128x1x8_0_1_3 : (⟨S8192x128x8, .f32⟩ : BufTy).Contents (Elt F) → (⟨S8192x128x1x8, .f32⟩ : BufTy).Contents (Elt F)),
    binary main_v40 main_v41 main_v42 ((fun a b => concatenate S8192x128x2x8 2 [⟨S8192x128x1x8, a⟩, ⟨S8192x128x1x8, b⟩] concatenates_S8192x128x1x8_S8192x128x1x8_S8192x128x2x8_d2) : (⟨S8192x128x1x8, .f32⟩ : BufTy).Contents (Elt F) → (⟨S8192x128x1x8, .f32⟩ : BufTy).Contents (Elt F) → (⟨S8192x128x2x8, .f32⟩ : BufTy).Contents (Elt F)),
    reshape main_v42 main_v43 rfl shapeCasts_S8192x128x2x8_S8192x2048,
    reshape main_v43 main_v44 rfl shapeCasts_S8192x2048_S8192x64x2x16,
    unary main_v44 main_v45 ((extractStridedSlice S8192x64x1x16 ![0, 0, 0, 0] · slices_S8192x64x2x16_S8192x64x1x16_0_0_0_0) : (⟨S8192x64x2x16, .f32⟩ : BufTy).Contents (Elt F) → (⟨S8192x64x1x16, .f32⟩ : BufTy).Contents (Elt F)),
    reshape main_v45 main_v46 rfl shapeCasts_S8192x64x1x16_S8192x64x16,
    unary main_v44 main_v47 ((extractStridedSlice S8192x64x1x16 ![0, 0, 1, 0] · slices_S8192x64x2x16_S8192x64x1x16_0_0_1_0) : (⟨S8192x64x2x16, .f32⟩ : BufTy).Contents (Elt F) → (⟨S8192x64x1x16, .f32⟩ : BufTy).Contents (Elt F)),
    reshape main_v47 main_v48 rfl shapeCasts_S8192x64x1x16_S8192x64x16,
    binary main_v46 main_v48 main_v49 (addf : (⟨S8192x64x16, .f32⟩ : BufTy).Contents (Elt F) → (⟨S8192x64x16, .f32⟩ : BufTy).Contents (Elt F) → (⟨S8192x64x16, .f32⟩ : BufTy).Contents (Elt F)),
    binary main_v46 main_v48 main_v50 (subf : (⟨S8192x64x16, .f32⟩ : BufTy).Contents (Elt F) → (⟨S8192x64x16, .f32⟩ : BufTy).Contents (Elt F) → (⟨S8192x64x16, .f32⟩ : BufTy).Contents (Elt F)),
    unary main_v49 main_v51 (broadcastInDim S8192x64x1x16 ![0, 1, 3] bcast_S8192x64x16_S8192x64x1x16_0_1_3 : (⟨S8192x64x16, .f32⟩ : BufTy).Contents (Elt F) → (⟨S8192x64x1x16, .f32⟩ : BufTy).Contents (Elt F)),
    unary main_v50 main_v52 (broadcastInDim S8192x64x1x16 ![0, 1, 3] bcast_S8192x64x16_S8192x64x1x16_0_1_3 : (⟨S8192x64x16, .f32⟩ : BufTy).Contents (Elt F) → (⟨S8192x64x1x16, .f32⟩ : BufTy).Contents (Elt F)),
    binary main_v51 main_v52 main_v53 ((fun a b => concatenate S8192x64x2x16 2 [⟨S8192x64x1x16, a⟩, ⟨S8192x64x1x16, b⟩] concatenates_S8192x64x1x16_S8192x64x1x16_S8192x64x2x16_d2) : (⟨S8192x64x1x16, .f32⟩ : BufTy).Contents (Elt F) → (⟨S8192x64x1x16, .f32⟩ : BufTy).Contents (Elt F) → (⟨S8192x64x2x16, .f32⟩ : BufTy).Contents (Elt F)),
    reshape main_v53 main_v54 rfl shapeCasts_S8192x64x2x16_S8192x2048,
    reshape main_v54 main_v55 rfl shapeCasts_S8192x2048_S8192x32x2x32,
    unary main_v55 main_v56 ((extractStridedSlice S8192x32x1x32 ![0, 0, 0, 0] · slices_S8192x32x2x32_S8192x32x1x32_0_0_0_0) : (⟨S8192x32x2x32, .f32⟩ : BufTy).Contents (Elt F) → (⟨S8192x32x1x32, .f32⟩ : BufTy).Contents (Elt F)),
    reshape main_v56 main_v57 rfl shapeCasts_S8192x32x1x32_S8192x32x32,
    unary main_v55 main_v58 ((extractStridedSlice S8192x32x1x32 ![0, 0, 1, 0] · slices_S8192x32x2x32_S8192x32x1x32_0_0_1_0) : (⟨S8192x32x2x32, .f32⟩ : BufTy).Contents (Elt F) → (⟨S8192x32x1x32, .f32⟩ : BufTy).Contents (Elt F)),
    reshape main_v58 main_v59 rfl shapeCasts_S8192x32x1x32_S8192x32x32,
    binary main_v57 main_v59 main_v60 (addf : (⟨S8192x32x32, .f32⟩ : BufTy).Contents (Elt F) → (⟨S8192x32x32, .f32⟩ : BufTy).Contents (Elt F) → (⟨S8192x32x32, .f32⟩ : BufTy).Contents (Elt F)),
    binary main_v57 main_v59 main_v61 (subf : (⟨S8192x32x32, .f32⟩ : BufTy).Contents (Elt F) → (⟨S8192x32x32, .f32⟩ : BufTy).Contents (Elt F) → (⟨S8192x32x32, .f32⟩ : BufTy).Contents (Elt F)),
    unary main_v60 main_v62 (broadcastInDim S8192x32x1x32 ![0, 1, 3] bcast_S8192x32x32_S8192x32x1x32_0_1_3 : (⟨S8192x32x32, .f32⟩ : BufTy).Contents (Elt F) → (⟨S8192x32x1x32, .f32⟩ : BufTy).Contents (Elt F)),
    unary main_v61 main_v63 (broadcastInDim S8192x32x1x32 ![0, 1, 3] bcast_S8192x32x32_S8192x32x1x32_0_1_3 : (⟨S8192x32x32, .f32⟩ : BufTy).Contents (Elt F) → (⟨S8192x32x1x32, .f32⟩ : BufTy).Contents (Elt F)),
    binary main_v62 main_v63 main_v64 ((fun a b => concatenate S8192x32x2x32 2 [⟨S8192x32x1x32, a⟩, ⟨S8192x32x1x32, b⟩] concatenates_S8192x32x1x32_S8192x32x1x32_S8192x32x2x32_d2) : (⟨S8192x32x1x32, .f32⟩ : BufTy).Contents (Elt F) → (⟨S8192x32x1x32, .f32⟩ : BufTy).Contents (Elt F) → (⟨S8192x32x2x32, .f32⟩ : BufTy).Contents (Elt F)),
    reshape main_v64 main_v65 rfl shapeCasts_S8192x32x2x32_S8192x2048,
    reshape main_v65 main_v66 rfl shapeCasts_S8192x2048_S8192x16x2x64,
    unary main_v66 main_v67 ((extractStridedSlice S8192x16x1x64 ![0, 0, 0, 0] · slices_S8192x16x2x64_S8192x16x1x64_0_0_0_0) : (⟨S8192x16x2x64, .f32⟩ : BufTy).Contents (Elt F) → (⟨S8192x16x1x64, .f32⟩ : BufTy).Contents (Elt F)),
    reshape main_v67 main_v68 rfl shapeCasts_S8192x16x1x64_S8192x16x64,
    unary main_v66 main_v69 ((extractStridedSlice S8192x16x1x64 ![0, 0, 1, 0] · slices_S8192x16x2x64_S8192x16x1x64_0_0_1_0) : (⟨S8192x16x2x64, .f32⟩ : BufTy).Contents (Elt F) → (⟨S8192x16x1x64, .f32⟩ : BufTy).Contents (Elt F)),
    reshape main_v69 main_v70 rfl shapeCasts_S8192x16x1x64_S8192x16x64,
    binary main_v68 main_v70 main_v71 (addf : (⟨S8192x16x64, .f32⟩ : BufTy).Contents (Elt F) → (⟨S8192x16x64, .f32⟩ : BufTy).Contents (Elt F) → (⟨S8192x16x64, .f32⟩ : BufTy).Contents (Elt F)),
    binary main_v68 main_v70 main_v72 (subf : (⟨S8192x16x64, .f32⟩ : BufTy).Contents (Elt F) → (⟨S8192x16x64, .f32⟩ : BufTy).Contents (Elt F) → (⟨S8192x16x64, .f32⟩ : BufTy).Contents (Elt F)),
    unary main_v71 main_v73 (broadcastInDim S8192x16x1x64 ![0, 1, 3] bcast_S8192x16x64_S8192x16x1x64_0_1_3 : (⟨S8192x16x64, .f32⟩ : BufTy).Contents (Elt F) → (⟨S8192x16x1x64, .f32⟩ : BufTy).Contents (Elt F)),
    unary main_v72 main_v74 (broadcastInDim S8192x16x1x64 ![0, 1, 3] bcast_S8192x16x64_S8192x16x1x64_0_1_3 : (⟨S8192x16x64, .f32⟩ : BufTy).Contents (Elt F) → (⟨S8192x16x1x64, .f32⟩ : BufTy).Contents (Elt F)),
    binary main_v73 main_v74 main_v75 ((fun a b => concatenate S8192x16x2x64 2 [⟨S8192x16x1x64, a⟩, ⟨S8192x16x1x64, b⟩] concatenates_S8192x16x1x64_S8192x16x1x64_S8192x16x2x64_d2) : (⟨S8192x16x1x64, .f32⟩ : BufTy).Contents (Elt F) → (⟨S8192x16x1x64, .f32⟩ : BufTy).Contents (Elt F) → (⟨S8192x16x2x64, .f32⟩ : BufTy).Contents (Elt F)),
    reshape main_v75 main_v76 rfl shapeCasts_S8192x16x2x64_S8192x2048,
    reshape main_v76 main_v77 rfl shapeCasts_S8192x2048_S8192x8x2x128,
    unary main_v77 main_v78 ((extractStridedSlice S8192x8x1x128 ![0, 0, 0, 0] · slices_S8192x8x2x128_S8192x8x1x128_0_0_0_0) : (⟨S8192x8x2x128, .f32⟩ : BufTy).Contents (Elt F) → (⟨S8192x8x1x128, .f32⟩ : BufTy).Contents (Elt F)),
    reshape main_v78 main_v79 rfl shapeCasts_S8192x8x1x128_S8192x8x128,
    unary main_v77 main_v80 ((extractStridedSlice S8192x8x1x128 ![0, 0, 1, 0] · slices_S8192x8x2x128_S8192x8x1x128_0_0_1_0) : (⟨S8192x8x2x128, .f32⟩ : BufTy).Contents (Elt F) → (⟨S8192x8x1x128, .f32⟩ : BufTy).Contents (Elt F)),
    reshape main_v80 main_v81 rfl shapeCasts_S8192x8x1x128_S8192x8x128,
    binary main_v79 main_v81 main_v82 (addf : (⟨S8192x8x128, .f32⟩ : BufTy).Contents (Elt F) → (⟨S8192x8x128, .f32⟩ : BufTy).Contents (Elt F) → (⟨S8192x8x128, .f32⟩ : BufTy).Contents (Elt F)),
    binary main_v79 main_v81 main_v83 (subf : (⟨S8192x8x128, .f32⟩ : BufTy).Contents (Elt F) → (⟨S8192x8x128, .f32⟩ : BufTy).Contents (Elt F) → (⟨S8192x8x128, .f32⟩ : BufTy).Contents (Elt F)),
    unary main_v82 main_v84 (broadcastInDim S8192x8x1x128 ![0, 1, 3] bcast_S8192x8x128_S8192x8x1x128_0_1_3 : (⟨S8192x8x128, .f32⟩ : BufTy).Contents (Elt F) → (⟨S8192x8x1x128, .f32⟩ : BufTy).Contents (Elt F)),
    unary main_v83 main_v85 (broadcastInDim S8192x8x1x128 ![0, 1, 3] bcast_S8192x8x128_S8192x8x1x128_0_1_3 : (⟨S8192x8x128, .f32⟩ : BufTy).Contents (Elt F) → (⟨S8192x8x1x128, .f32⟩ : BufTy).Contents (Elt F)),
    binary main_v84 main_v85 main_v86 ((fun a b => concatenate S8192x8x2x128 2 [⟨S8192x8x1x128, a⟩, ⟨S8192x8x1x128, b⟩] concatenates_S8192x8x1x128_S8192x8x1x128_S8192x8x2x128_d2) : (⟨S8192x8x1x128, .f32⟩ : BufTy).Contents (Elt F) → (⟨S8192x8x1x128, .f32⟩ : BufTy).Contents (Elt F) → (⟨S8192x8x2x128, .f32⟩ : BufTy).Contents (Elt F)),
    reshape main_v86 main_v87 rfl shapeCasts_S8192x8x2x128_S8192x2048,
    reshape main_v87 main_v88 rfl shapeCasts_S8192x2048_S8192x4x2x256,
    unary main_v88 main_v89 ((extractStridedSlice S8192x4x1x256 ![0, 0, 0, 0] · slices_S8192x4x2x256_S8192x4x1x256_0_0_0_0) : (⟨S8192x4x2x256, .f32⟩ : BufTy).Contents (Elt F) → (⟨S8192x4x1x256, .f32⟩ : BufTy).Contents (Elt F)),
    reshape main_v89 main_v90 rfl shapeCasts_S8192x4x1x256_S8192x4x256,
    unary main_v88 main_v91 ((extractStridedSlice S8192x4x1x256 ![0, 0, 1, 0] · slices_S8192x4x2x256_S8192x4x1x256_0_0_1_0) : (⟨S8192x4x2x256, .f32⟩ : BufTy).Contents (Elt F) → (⟨S8192x4x1x256, .f32⟩ : BufTy).Contents (Elt F)),
    reshape main_v91 main_v92 rfl shapeCasts_S8192x4x1x256_S8192x4x256,
    binary main_v90 main_v92 main_v93 (addf : (⟨S8192x4x256, .f32⟩ : BufTy).Contents (Elt F) → (⟨S8192x4x256, .f32⟩ : BufTy).Contents (Elt F) → (⟨S8192x4x256, .f32⟩ : BufTy).Contents (Elt F)),
    binary main_v90 main_v92 main_v94 (subf : (⟨S8192x4x256, .f32⟩ : BufTy).Contents (Elt F) → (⟨S8192x4x256, .f32⟩ : BufTy).Contents (Elt F) → (⟨S8192x4x256, .f32⟩ : BufTy).Contents (Elt F)),
    unary main_v93 main_v95 (broadcastInDim S8192x4x1x256 ![0, 1, 3] bcast_S8192x4x256_S8192x4x1x256_0_1_3 : (⟨S8192x4x256, .f32⟩ : BufTy).Contents (Elt F) → (⟨S8192x4x1x256, .f32⟩ : BufTy).Contents (Elt F)),
    unary main_v94 main_v96 (broadcastInDim S8192x4x1x256 ![0, 1, 3] bcast_S8192x4x256_S8192x4x1x256_0_1_3 : (⟨S8192x4x256, .f32⟩ : BufTy).Contents (Elt F) → (⟨S8192x4x1x256, .f32⟩ : BufTy).Contents (Elt F)),
    binary main_v95 main_v96 main_v97 ((fun a b => concatenate S8192x4x2x256 2 [⟨S8192x4x1x256, a⟩, ⟨S8192x4x1x256, b⟩] concatenates_S8192x4x1x256_S8192x4x1x256_S8192x4x2x256_d2) : (⟨S8192x4x1x256, .f32⟩ : BufTy).Contents (Elt F) → (⟨S8192x4x1x256, .f32⟩ : BufTy).Contents (Elt F) → (⟨S8192x4x2x256, .f32⟩ : BufTy).Contents (Elt F)),
    reshape main_v97 main_v98 rfl shapeCasts_S8192x4x2x256_S8192x2048,
    reshape main_v98 main_v99 rfl shapeCasts_S8192x2048_S8192x2x2x512,
    unary main_v99 main_v100 ((extractStridedSlice S8192x2x1x512 ![0, 0, 0, 0] · slices_S8192x2x2x512_S8192x2x1x512_0_0_0_0) : (⟨S8192x2x2x512, .f32⟩ : BufTy).Contents (Elt F) → (⟨S8192x2x1x512, .f32⟩ : BufTy).Contents (Elt F)),
    reshape main_v100 main_v101 rfl shapeCasts_S8192x2x1x512_S8192x2x512,
    unary main_v99 main_v102 ((extractStridedSlice S8192x2x1x512 ![0, 0, 1, 0] · slices_S8192x2x2x512_S8192x2x1x512_0_0_1_0) : (⟨S8192x2x2x512, .f32⟩ : BufTy).Contents (Elt F) → (⟨S8192x2x1x512, .f32⟩ : BufTy).Contents (Elt F)),
    reshape main_v102 main_v103 rfl shapeCasts_S8192x2x1x512_S8192x2x512,
    binary main_v101 main_v103 main_v104 (addf : (⟨S8192x2x512, .f32⟩ : BufTy).Contents (Elt F) → (⟨S8192x2x512, .f32⟩ : BufTy).Contents (Elt F) → (⟨S8192x2x512, .f32⟩ : BufTy).Contents (Elt F)),
    binary main_v101 main_v103 main_v105 (subf : (⟨S8192x2x512, .f32⟩ : BufTy).Contents (Elt F) → (⟨S8192x2x512, .f32⟩ : BufTy).Contents (Elt F) → (⟨S8192x2x512, .f32⟩ : BufTy).Contents (Elt F)),
    unary main_v104 main_v106 (broadcastInDim S8192x2x1x512 ![0, 1, 3] bcast_S8192x2x512_S8192x2x1x512_0_1_3 : (⟨S8192x2x512, .f32⟩ : BufTy).Contents (Elt F) → (⟨S8192x2x1x512, .f32⟩ : BufTy).Contents (Elt F)),
    unary main_v105 main_v107 (broadcastInDim S8192x2x1x512 ![0, 1, 3] bcast_S8192x2x512_S8192x2x1x512_0_1_3 : (⟨S8192x2x512, .f32⟩ : BufTy).Contents (Elt F) → (⟨S8192x2x1x512, .f32⟩ : BufTy).Contents (Elt F)),
    binary main_v106 main_v107 main_v108 ((fun a b => concatenate S8192x2x2x512 2 [⟨S8192x2x1x512, a⟩, ⟨S8192x2x1x512, b⟩] concatenates_S8192x2x1x512_S8192x2x1x512_S8192x2x2x512_d2) : (⟨S8192x2x1x512, .f32⟩ : BufTy).Contents (Elt F) → (⟨S8192x2x1x512, .f32⟩ : BufTy).Contents (Elt F) → (⟨S8192x2x2x512, .f32⟩ : BufTy).Contents (Elt F)),
    reshape main_v108 main_v109 rfl shapeCasts_S8192x2x2x512_S8192x2048,
    reshape main_v109 main_v110 rfl shapeCasts_S8192x2048_S8192x1x2x1024,
    unary main_v110 main_v111 ((extractStridedSlice S8192x1x1x1024 ![0, 0, 0, 0] · slices_S8192x1x2x1024_S8192x1x1x1024_0_0_0_0) : (⟨S8192x1x2x1024, .f32⟩ : BufTy).Contents (Elt F) → (⟨S8192x1x1x1024, .f32⟩ : BufTy).Contents (Elt F)),
    reshape main_v111 main_v112 rfl shapeCasts_S8192x1x1x1024_S8192x1x1024,
    unary main_v110 main_v113 ((extractStridedSlice S8192x1x1x1024 ![0, 0, 1, 0] · slices_S8192x1x2x1024_S8192x1x1x1024_0_0_1_0) : (⟨S8192x1x2x1024, .f32⟩ : BufTy).Contents (Elt F) → (⟨S8192x1x1x1024, .f32⟩ : BufTy).Contents (Elt F)),
    reshape main_v113 main_v114 rfl shapeCasts_S8192x1x1x1024_S8192x1x1024,
    binary main_v112 main_v114 main_v115 (addf : (⟨S8192x1x1024, .f32⟩ : BufTy).Contents (Elt F) → (⟨S8192x1x1024, .f32⟩ : BufTy).Contents (Elt F) → (⟨S8192x1x1024, .f32⟩ : BufTy).Contents (Elt F)),
    binary main_v112 main_v114 main_v116 (subf : (⟨S8192x1x1024, .f32⟩ : BufTy).Contents (Elt F) → (⟨S8192x1x1024, .f32⟩ : BufTy).Contents (Elt F) → (⟨S8192x1x1024, .f32⟩ : BufTy).Contents (Elt F)),
    unary main_v115 main_v117 (broadcastInDim S8192x1x1x1024 ![0, 1, 3] bcast_S8192x1x1024_S8192x1x1x1024_0_1_3 : (⟨S8192x1x1024, .f32⟩ : BufTy).Contents (Elt F) → (⟨S8192x1x1x1024, .f32⟩ : BufTy).Contents (Elt F)),
    unary main_v116 main_v118 (broadcastInDim S8192x1x1x1024 ![0, 1, 3] bcast_S8192x1x1024_S8192x1x1x1024_0_1_3 : (⟨S8192x1x1024, .f32⟩ : BufTy).Contents (Elt F) → (⟨S8192x1x1x1024, .f32⟩ : BufTy).Contents (Elt F)),
    binary main_v117 main_v118 main_v119 ((fun a b => concatenate S8192x1x2x1024 2 [⟨S8192x1x1x1024, a⟩, ⟨S8192x1x1x1024, b⟩] concatenates_S8192x1x1x1024_S8192x1x1x1024_S8192x1x2x1024_d2) : (⟨S8192x1x1x1024, .f32⟩ : BufTy).Contents (Elt F) → (⟨S8192x1x1x1024, .f32⟩ : BufTy).Contents (Elt F) → (⟨S8192x1x2x1024, .f32⟩ : BufTy).Contents (Elt F)),
    reshape main_v119 main_v120 rfl shapeCasts_S8192x1x2x1024_S8192x2048,
    nullary main_cst (constant S_ .f32 0x3CB504F3#32),
    unary main_cst main_v121 (broadcastInDim S8192x2048 ![] bcast_S_S8192x2048 : (⟨S_, .f32⟩ : BufTy).Contents (Elt F) → (⟨S8192x2048, .f32⟩ : BufTy).Contents (Elt F)),
    binary main_v120 main_v121 main_v122 (mulf : (⟨S8192x2048, .f32⟩ : BufTy).Contents (Elt F) → (⟨S8192x2048, .f32⟩ : BufTy).Contents (Elt F) → (⟨S8192x2048, .f32⟩ : BufTy).Contents (Elt F)),
    binary main_v122 main_arg1 main_v123 ((fun l r => Host.dotGeneral dot_S8192x2048_S8192x2048_S8192x8192_1_1_0_0_n_n none l r) : (⟨S8192x2048, .f32⟩ : BufTy).Contents (Elt F) → (⟨S8192x2048, .f32⟩ : BufTy).Contents (Elt F) → (⟨S8192x8192, .f32⟩ : BufTy).Contents (Elt F)),
    unary main_arg2 main_v124 (broadcastInDim S1x8192 ![1] bcast_S8192_S1x8192_1 : (⟨S8192, .f32⟩ : BufTy).Contents (Elt F) → (⟨S1x8192, .f32⟩ : BufTy).Contents (Elt F)),
    unary main_v124 main_v125 (broadcastInDim S8192x8192 ![0, 1] bcast_S1x8192_S8192x8192_0_1 : (⟨S1x8192, .f32⟩ : BufTy).Contents (Elt F) → (⟨S8192x8192, .f32⟩ : BufTy).Contents (Elt F)),
    binary main_v123 main_v125 main_v126 (addf : (⟨S8192x8192, .f32⟩ : BufTy).Contents (Elt F) → (⟨S8192x8192, .f32⟩ : BufTy).Contents (Elt F) → (⟨S8192x8192, .f32⟩ : BufTy).Contents (Elt F)) ]

/-- @main is that line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore references only. -/
theorem ops_sub : (ops : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub .., nullary_bufs_sub .., unary_bufs_sub .., binary_bufs_sub .., binary_bufs_sub .., unary_bufs_sub .., unary_bufs_sub .., binary_bufs_sub ..⟩

/-- The run: from any memory with zero counters every weakly fair execution of @main terminates, each buffer of each
    device at the line's fold over what the device held at launch. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.ReferencePrefix.lean ====
/-
  The Hadamard prefix of `Cert.ReferenceIdeal`'s host program, evaluated one butterfly stage at a time. The program's first 121 host
  operations are the eleven stages (eleven operations each: a cast to groups of two halves, the two slices, their casts,
  the sum and the difference, their two broadcasts, the concatenation, the cast back to rows); the line is cut at the
  stage boundaries, each stretch is shown to apply one `Butterfly.stage` to whatever its input buffer held, and the
  stretches are chained. Nothing here depends on the values: the valuation a stretch starts from is a variable.
-/
import proofs.«132718_j74680891343685_1_alg».proof.Proof.ReferenceLine
import proofs.«132718_j74680891343685_1_alg».proof.Proof.Butterfly
import proofs.«132718_j74680891343685_1_alg».proof.Proof.LibAfterSplit
import Idealize.ShloMosaic.Lib.StableHlo.Run

noncomputable section

namespace Cert.ReferenceIdeal.Prefix

open Cert.ReferenceIdeal Cert.ReferenceIdeal.Gen Idealize.ShloMosaic Idealize.ShloMosaic.TcCoe Idealize.SL.Sem Idealize.ShloMosaic.StableHlo
open Cert.Butterfly Cert.LibAfterSplit

variable {F : FTy → Type} [FloatOps F]

/-- The eleven stages' operations: the first 121 of the line. -/
abbrev Q : List (HloOp τ sig (Elt F)) := (Line.ops (F := F)).take 121

/-! ## One stage per stretch of eleven operations -/

/-- Stage 1: halves of length 1, 1024 groups to a row. -/
theorem stage1 (V : Valuation τ sig (Elt F)) :
    after ((Q (F := F)).take 11) V (Proc.devRef .tc main_v10)
      = stage 8192 1024 1 2048 (by decide) (by decide) (by decide) (by decide) (by decide) (by decide) (by decide) (V (Proc.devRef .tc main_arg0)) := by
  show after [_, _, _, _, _, _, _, _, _, _, _] V _ = _
  after_results
  rfl

/-- Stage 2: halves of length 2, 512 groups to a row. -/
theorem stage2 (V : Valuation τ sig (Elt F)) :
    after (((Q (F := F)).drop 11).take 11) V (Proc.devRef .tc main_v21)
      = stage 8192 512 2 2048 (by decide) (by decide) (by decide) (by decide) (by decide) (by decide) (by decide) (V (Proc.devRef .tc main_v10)) := by
  show after [_, _, _, _, _, _, _, _, _, _, _] V _ = _
  after_results
  rfl

/-- Stage 3: halves of length 4, 256 groups to a row. -/
theorem stage3 (V : Valuation τ sig (Elt F)) :
    after ((((Q (F := F)).drop 11).drop 11).take 11) V (Proc.devRef .tc main_v32)
      = stage 8192 256 4 2048 (by decide) (by decide) (by decide) (by decide) (by decide) (by decide) (by decide) (V (Proc.devRef .tc main_v21)) := by
  show after [_, _, _, _, _, _, _, _, _, _, _] V _ = _
  after_results
  rfl

/-- Stage 4: halves of length 8, 128 groups to a row. -/
theorem stage4 (V : Valuation τ sig (Elt F)) :
    after (((((Q (F := F)).drop 11).drop 11).drop 11).take 11) V (Proc.devRef .tc main_v43)
      = stage 8192 128 8 2048 (by decide) (by decide) (by decide) (by decide) (by decide) (by decide) (by decide) (V (Proc.devRef .tc main_v32)) := by
  show after [_, _, _, _, _, _, _, _, _, _, _] V _ = _
  after_results
  rfl

/-- Stage 5: halves of length 16, 64 groups to a row. -/
theorem stage5 (V : Valuation τ sig (Elt F)) :
    after ((((((Q (F := F)).drop 11).drop 11).drop 11).drop 11).take 11) V (Proc.devRef .tc main_v54)
      = stage 8192 64 16 2048 (by decide) (by decide) (by decide) (by decide) (by decide) (by decide) (by decide) (V (Proc.devRef .tc main_v43)) := by
  show after [_, _, _, _, _, _, _, _, _, _, _] V _ = _
  after_results
  rfl

/-- Stage 6: halves of length 32, 32 groups to a row. -/
theorem stage6 (V : Valuation τ sig (Elt F)) :
    after (((((((Q (F := F)).drop 11).drop 11).drop 11).drop 11).drop 11).take 11) V (Proc.devRef .tc main_v65)
      = stage 8192 32 32 2048 (by decide) (by decide) (by decide) (by decide) (by decide) (by decide) (by decide) (V (Proc.devRef .tc main_v54)) := by
  show after [_, _, _, _, _, _, _, _, _, _, _] V _ = _
  after_results
  rfl

/-- Stage 7: halves of length 64, 16 groups to a row. -/
theorem stage7 (V : Valuation τ sig (Elt F)) :
    after ((((((((Q (F := F)).drop 11).drop 11).drop 11).drop 11).drop 11).drop 11).take 11) V (Proc.devRef .tc main_v76)
      = stage 8192 16 64 2048 (by decide) (by decide) (by decide) (by decide) (by decide) (by decide) (by decide) (V (Proc.devRef .tc main_v65)) := by
  show after [_, _, _, _, _, _, _, _, _, _, _] V _ = _
  after_results
  rfl

/-- Stage 8: halves of length 128, 8 groups to a row. -/
theorem stage8 (V : Valuation τ sig (Elt F)) :
    after (((((((((Q (F := F)).drop 11).drop 11).drop 11).drop 11).drop 11).drop 11).drop 11).take 11) V (Proc.devRef .tc main_v87)
      = stage 8192 8 128 2048 (by decide) (by decide) (by decide) (by decide) (by decide) (by decide) (by decide) (V (Proc.devRef .tc main_v76)) := by
  show after [_, _, _, _, _, _, _, _, _, _, _] V _ = _
  after_results
  rfl

/-- Stage 9: halves of length 256, 4 groups to a row. -/
theorem stage9 (V : Valuation τ sig (Elt F)) :
    after ((((((((((Q (F := F)).drop 11).drop 11).drop 11).drop 11).drop 11).drop 11).drop 11).drop 11).take 11) V (Proc.devRef .tc main_v98)
      = stage 8192 4 256 2048 (by decide) (by decide) (by decide) (by decide) (by decide) (by decide) (by decide) (V (Proc.devRef .tc main_v87)) := by
  show after [_, _, _, _, _, _, _, _, _, _, _] V _ = _
  after_results
  rfl

/-- Stage 10: halves of length 512, 2 groups to a row. -/
theorem stage10 (V : Valuation τ sig (Elt F)) :
    after (((((((((((Q (F := F)).drop 11).drop 11).drop 11).drop 11).drop 11).drop 11).drop 11).drop 11).drop 11).take 11) V (Proc.devRef .tc main_v109)
      = stage 8192 2 512 2048 (by decide) (by decide) (by decide) (by decide) (by decide) (by decide) (by decide) (V (Proc.devRef .tc main_v98)) := by
  show after [_, _, _, _, _, _, _, _, _, _, _] V _ = _
  after_results
  rfl

/-- Stage 11: halves of length 1024, 1 group to a row. -/
theorem stage11 (V : Valuation τ sig (Elt F)) :
    after ((((((((((((Q (F := F)).drop 11).drop 11).drop 11).drop 11).drop 11).drop 11).drop 11).drop 11).drop 11).drop 11).take 11) V (Proc.devRef .tc main_v120)
      = stage 8192 1 1024 2048 (by decide) (by decide) (by decide) (by decide) (by decide) (by decide) (by decide) (V (Proc.devRef .tc main_v109)) := by
  show after [_, _, _, _, _, _, _, _, _, _, _] V _ = _
  after_results
  rfl

/-! ## The eleven stretches chained -/

/-- After the first 121 operations the last stage's row buffer holds the eleven stages of the first argument. -/
theorem stages_eq (V : Valuation τ sig (Elt F)) :
    after (Q (F := F)) V (Proc.devRef .tc main_v120) = stages (V (Proc.devRef .tc main_arg0)) := by
  rw [after_split 11 (Q (F := F)) V,
    after_split 11 ((Q (F := F)).drop 11),
    after_split 11 (((Q (F := F)).drop 11).drop 11),
    after_split 11 ((((Q (F := F)).drop 11).drop 11).drop 11),
    after_split 11 (((((Q (F := F)).drop 11).drop 11).drop 11).drop 11),
    after_split 11 ((((((Q (F := F)).drop 11).drop 11).drop 11).drop 11).drop 11),
    after_split 11 (((((((Q (F := F)).drop 11).drop 11).drop 11).drop 11).drop 11).drop 11),
    after_split 11 ((((((((Q (F := F)).drop 11).drop 11).drop 11).drop 11).drop 11).drop 11).drop 11),
    after_split 11 (((((((((Q (F := F)).drop 11).drop 11).drop 11).drop 11).drop 11).drop 11).drop 11).drop 11),
    after_split 11 ((((((((((Q (F := F)).drop 11).drop 11).drop 11).drop 11).drop 11).drop 11).drop 11).drop 11).drop 11),
    after_split 11 (((((((((((Q (F := F)).drop 11).drop 11).drop 11).drop 11).drop 11).drop 11).drop 11).drop 11).drop 11).drop 11)]
  show after [] _ (Proc.devRef .tc main_v120) = _
  rw [after_nil, stage11, stage10, stage9, stage8, stage7, stage6, stage5, stage4, stage3, stage2, stage1]
  rfl

/-! ## The arguments: no operation of the line writes one -/

/-- No operation of the line writes `main_arg0`. -/
theorem notW_main_arg0 : ∀ op ∈ (Line.ops (F := F) : List (HloOp τ sig (Elt F))), (Proc.devRef .tc main_arg0 : DevRef τ sig) ∉ op.writes :=
  List.forall_iff_forall_mem.mp (by
    simp only [Line.ops, List.Forall, StableHlo.nullary_writes, StableHlo.unary_writes, StableHlo.binary_writes,
      StableHlo.reshape_writes, Finset.mem_singleton]
    repeat' apply And.intro
    all_goals exact StableHlo.devRef_ne_of_ne (by decide))

/-- No operation of the line writes `main_arg1`. -/
theorem notW_main_arg1 : ∀ op ∈ (Line.ops (F := F) : List (HloOp τ sig (Elt F))), (Proc.devRef .tc main_arg1 : DevRef τ sig) ∉ op.writes :=
  List.forall_iff_forall_mem.mp (by
    simp only [Line.ops, List.Forall, StableHlo.nullary_writes, StableHlo.unary_writes, StableHlo.binary_writes,
      StableHlo.reshape_writes, Finset.mem_singleton]
    repeat' apply And.intro
    all_goals exact StableHlo.devRef_ne_of_ne (by decide))

/-- So the first 121 operations leave it as it was. -/
theorem keep_main_arg1 (V : Valuation τ sig (Elt F)) :
    after (Q (F := F)) V (Proc.devRef .tc main_arg1) = V (Proc.devRef .tc main_arg1) :=
  after_of_forall_not_mem (b := Proc.devRef .tc main_arg1) _ _ fun op hop => notW_main_arg1 op (List.mem_of_mem_take hop)

/-- No operation of the line writes `main_arg2`. -/
theorem notW_main_arg2 : ∀ op ∈ (Line.ops (F := F) : List (HloOp τ sig (Elt F))), (Proc.devRef .tc main_arg2 : DevRef τ sig) ∉ op.writes :=
  List.forall_iff_forall_mem.mp (by
    simp only [Line.ops, List.Forall, StableHlo.nullary_writes, StableHlo.unary_writes, StableHlo.binary_writes,
      StableHlo.reshape_writes, Finset.mem_singleton]
    repeat' apply And.intro
    all_goals exact StableHlo.devRef_ne_of_ne (by decide))

/-- So the first 121 operations leave it as it was. -/
theorem keep_main_arg2 (V : Valuation τ sig (Elt F)) :
    after (Q (F := F)) V (Proc.devRef .tc main_arg2) = V (Proc.devRef .tc main_arg2) :=
  after_of_forall_not_mem (b := Proc.devRef .tc main_arg2) _ _ fun op hop => notW_main_arg2 op (List.mem_of_mem_take hop)

/-- The whole line leaves `main_arg0` as it was. -/
theorem kept_main_arg0 (V : Valuation τ sig (Elt F)) :
    after (Line.ops (F := F)) V (Proc.devRef .tc main_arg0) = V (Proc.devRef .tc main_arg0) :=
  after_of_forall_not_mem (b := Proc.devRef .tc main_arg0) _ _ notW_main_arg0

/-- The whole line leaves `main_arg1` as it was. -/
theorem kept_main_arg1 (V : Valuation τ sig (Elt F)) :
    after (Line.ops (F := F)) V (Proc.devRef .tc main_arg1) = V (Proc.devRef .tc main_arg1) :=
  after_of_forall_not_mem (b := Proc.devRef .tc main_arg1) _ _ notW_main_arg1

/-- The whole line leaves `main_arg2` as it was. -/
theorem kept_main_arg2 (V : Valuation τ sig (Elt F)) :
    after (Line.ops (F := F)) V (Proc.devRef .tc main_arg2) = V (Proc.devRef .tc main_arg2) :=
  after_of_forall_not_mem (b := Proc.devRef .tc main_arg2) _ _ notW_main_arg2

/-! ## The result buffer, over the rotation as one function -/

/-- What the line leaves in its result: the host's product of the rotated first argument's rows with the second
    argument's rows, plus the third argument broadcast over the rows. -/
theorem result (V : Valuation τ sig (Elt F)) :
    after (Line.ops (F := F)) V (Proc.devRef .tc main_v126)
      = addf (Host.dotGeneral dot_S8192x2048_S8192x2048_S8192x8192_1_1_0_0_n_n none
            (rot (V (Proc.devRef .tc main_arg0)) : FVec F S8192x2048 .f32) (V (Proc.devRef .tc main_arg1)))
          (broadcastInDim S8192x8192 ![0, 1] bcast_S1x8192_S8192x8192_0_1
            (broadcastInDim S1x8192 ![1] bcast_S8192_S1x8192_1 (V (Proc.devRef .tc main_arg2)))) := by
  have h0 := stages_eq V
  have h1 := keep_main_arg1 V
  have h2 := keep_main_arg2 V
  rw [after_split 121 (Line.ops (F := F)) V]
  generalize after (Q (F := F)) V = P at h0 h1 h2 ⊢
  show after [_, _, _, _, _, _, _] P _ = _
  after_results
  rw [h0, h1, h2]
  rfl

end Cert.ReferenceIdeal.Prefix

end
-- ==== Proof.ReferenceValue.lean ====
/-
  The reference's result as the same function of the three arguments. After the Hadamard prefix the reference takes ONE
  product over the whole arrays — the host's `dot_general` contracting the last axis of the rotated activations and of
  the weights — and adds the bias, broadcast first to a row and then down all 8192 rows. At row `t` and column `o`
  that is `∑_d h[t, d] · w[o, d] + b[o]`: the linear layer.
-/
import proofs.«132718_j74680891343685_1_alg».proof.Proof.ReferencePrefix
import proofs.«132718_j74680891343685_1_alg».proof.Proof.Affine
import Idealize.ShloMosaic.Lib.Pipeline.Value
import Idealize.ShloMosaic.Lib.ValueIdx

noncomputable section

open scoped BigOperators

namespace Cert.ReferenceIdeal.Whole

open Cert.ReferenceIdeal Cert.ReferenceIdeal.Gen Idealize.ShloMosaic Idealize.ShloMosaic.TcCoe Idealize.SL.Sem
open Idealize.ShloMosaic.StableHlo Idealize.ShloMosaic.ValueIdx
open Cert.Butterfly Cert.Affine

/-- The host's product plus the twice-broadcast bias is the linear layer, entry by entry. -/
theorem tail_eq (H W : FVec Ideal S8192x2048 .f32) (B : FVec Ideal S8192 .f32) :
    addf (Host.dotGeneral dot_S8192x2048_S8192x2048_S8192x8192_1_1_0_0_n_n none H W)
        (broadcastInDim S8192x8192 ![0, 1] bcast_S1x8192_S8192x8192_0_1 (broadcastInDim S1x8192 ![1] bcast_S8192_S1x8192_1 B))
      = affine H W B := by
  funext i
  obtain ⟨t, o, rfl⟩ : ∃ (t o : Fin 8192), i = ix2 t o := ⟨i 0, i 1, eq_ix2 i⟩
  rw [affine_apply]
  refine (addf_apply _ _ _).trans ?_
  refine congrArg₂ (· + ·) ?_ ?_
  · exact Cert.LibRowDot.dotGeneral_apply none .single H W t o
  · refine (broadcastInDim_apply _ _ _ (ix2 t o) (ix2 (0 : Fin 1) o) (fun a => ?_)).trans
      (broadcastInDim_apply _ _ _ (ix2 (0 : Fin 1) o) (ix1 o) (fun a => ?_))
    · match a with
      | ⟨0, _⟩ => rfl
      | ⟨1, _⟩ => rfl
    · match a with
      | ⟨0, _⟩ => rfl

variable (m : (ℓ : Loc nD τ sig) → Buf (Elt Ideal) ℓ) (ρ : Dev nD → PrngReg)

/-- The reference's run: every weakly fair execution terminates with the result at the linear layer of the rotated first
    argument, the second and the third, and the arguments as launched. -/
theorem run : θ_run defs (onTc (τ := τ) (main (F := Ideal))) ⟨m, fun _ => 0, ρ⟩ fun r => ∀ c : Dev nD,
      r.2.mem ((c.tc : Thread nD τ).loc main_v126)
        = affine (rot (m ((c.tc : Thread nD τ).loc main_arg0))) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v126).trans ((Prefix.result (launchContents m c)).trans (tail_eq _ _ _)),
        (h c main_arg0).trans (Prefix.kept_main_arg0 (launchContents m c)),
        (h c main_arg1).trans (Prefix.kept_main_arg1 (launchContents m c)),
        (h c main_arg2).trans (Prefix.kept_main_arg2 (launchContents m c))⟩)
    (Line.run_line m ρ)

end Cert.ReferenceIdeal.Whole

end
-- ==== Proof.lean ====
/-
  The certificate of the Hadamard-rotated linear layer. Both programs rotate the rows of the first argument by the same
  eleven butterfly stages and one scaling (`Butterfly.rot`, carried as one function and never opened), and then form
  `out[t, o] = ∑_d rot(x)[t, d] · w[o, d] + b[o]` (`Affine.affine`): the kernel on a 16 × 8 grid of 512 × 1024 tiles,
  each holding the whole contraction, its operands narrowed to bf16 — the identity on extended reals —; the reference
  with one product over the whole arrays. Entry by entry the two are the same sum, so the claim needs no law of the
  extended reals beyond reading both products at an index, and the precondition is not used.
  The word-level kernel's and the idealized kernel's frames are their generated frame certificates; the reference's frame
  is its run with the result dropped; the idealization rewrote no operation, so `preserves` asks nothing.
-/
import proofs.«132718_j74680891343685_1_alg».proof.Defs
import proofs.«132718_j74680891343685_1_alg».proof.Proof.Gen.Kernel
import proofs.«132718_j74680891343685_1_alg».proof.Proof.Gen.Kernel.Skeleton
import proofs.«132718_j74680891343685_1_alg».proof.Proof.Gen.Kernel.Launch
import proofs.«132718_j74680891343685_1_alg».proof.Proof.Gen.Kernel.Points
import proofs.«132718_j74680891343685_1_alg».proof.Proof.Gen.Kernel.Frame
import proofs.«132718_j74680891343685_1_alg».proof.Proof.Gen.KernelIdeal
import proofs.«132718_j74680891343685_1_alg».proof.Proof.Gen.KernelIdeal.Skeleton
import proofs.«132718_j74680891343685_1_alg».proof.Proof.Gen.KernelIdeal.Launch
import proofs.«132718_j74680891343685_1_alg».proof.Proof.Gen.KernelIdeal.Points
import proofs.«132718_j74680891343685_1_alg».proof.Proof.Gen.KernelIdeal.Frame
import proofs.«132718_j74680891343685_1_alg».proof.Proof.Gen.ReferenceIdeal
import proofs.«132718_j74680891343685_1_alg».proof.Proof.Gen.Pre_finite_inputs
import proofs.«132718_j74680891343685_1_alg».proof.Proof.Gen.KernelIdeal.Value
import proofs.«132718_j74680891343685_1_alg».proof.Proof.KernelValue
import proofs.«132718_j74680891343685_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Whole.run m ρ)

/-- The idealization rewrote nothing. -/
theorem preserves : Cert.preserves_Kernel_KernelIdeal := trivial

/-- From memories that agree on the three arguments both idealized programs end with the result array at the linear
    layer of the rotated first argument, the second and the third: the kernel tile by tile, the reference in one product. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
